-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1250000x64 : Shape := ⟨2, ![1250000, 64]⟩
abbrev S1250000 : Shape := ⟨1, ![1250000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1250000x64 : S_.BroadcastsInDim S1250000x64 (![] : Fin 0 → Fin S1250000x64.rank)
  reducesTo_S1250000x64_S_d0_1 : S1250000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_arg13 : FVec F S32 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg13
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  main_v58

def fn_part2 {F : FTy → Type} [FloatOps F] (main_arg9 : FVec F S64 .f32) (main_arg10 : FVec F S64x64 .f32) (main_arg11 : FVec F S64 .f32) (main_arg12 : FVec F S64x32 .f32) (main_arg13 : FVec F S32 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x32 .f32 := Host.absf main_arg12
  let main_cst_18 : FVec F S_ .f32 := constant S_ .f32 0x7F800000#32
  let main_v50 : FVec F S64x32 .f32 := broadcastInDim S64x32 ![] bcast_S_S64x32 main_cst_18
  fn_part3 (F := F) main_arg13 main_v48 main_v49 main_v50

def fn_part1 {F : FTy → Type} [FloatOps F] (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x32 .f32) (main_arg13 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x64 .f32) (main_arg1 : FVec F S1250000x64 .f32) (main_arg2 : IVec S1250000 32) (main_arg3 : IVec S1250000 32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x32 .f32) (main_arg13 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1250000x64 .f32 := Host.absf main_arg1
  let main_cst_0 : FVec F S_ .f32 := constant S_ .f32 0x7F800000#32
  let main_v5 : FVec F S1250000x64 .f32 := broadcastInDim S1250000x64 ![] bcast_S_S1250000x64 main_cst_0
  let main_v6 : IVec S1250000x64 1 := cmpf .olt main_v4 main_v5
  let main_c_1 : IVec S_ 1 := constantI S_ 1 1#1
  let main_v7 : IVec S_ 1 := (fun x v => Host.reduce IntOp.andi x v reducesTo_S1250000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_v13 main_v16
-- ==== Kernel.lean ====
abbrev S100000x64 : Shape := ⟨2, ![100000, 64]⟩
abbrev S1250000x64 : Shape := ⟨2, ![1250000, 64]⟩
abbrev S1250000 : Shape := ⟨1, ![1250000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S64x128 : Shape := ⟨2, ![64, 128]⟩
abbrev S128 : Shape := ⟨1, ![128]⟩
abbrev S1x128 : Shape := ⟨2, ![1, 128]⟩
abbrev S1x64 : Shape := ⟨2, ![1, 64]⟩
abbrev S1x32 : Shape := ⟨2, ![1, 32]⟩
abbrev S100000x128 : Shape := ⟨2, ![100000, 128]⟩
abbrev S10000x64 : Shape := ⟨2, ![10000, 64]⟩
abbrev S10000x128 : Shape := ⟨2, ![10000, 128]⟩
abbrev S_ : Shape := ⟨0, ![]⟩
abbrev S1250000x1 : Shape := ⟨2, ![1250000, 1]⟩
abbrev S1250000x2 : Shape := ⟨2, ![1250000, 2]⟩
abbrev S1250000x32 : Shape := ⟨2, ![1250000, 32]⟩
abbrev S5000x64 : Shape := ⟨2, ![5000, 64]⟩
abbrev S5000x32 : Shape := ⟨2, ![5000, 32]⟩

abbrev nBuf : Space → Nat
  | .hbm => 54
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S1250000x64, .f32⟩
  | .hbm, ⟨2, _⟩ => ⟨S1250000, .i32⟩
  | .hbm, ⟨3, _⟩ => ⟨S1250000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x32, .f32⟩
  | .hbm, ⟨13, _⟩ => ⟨S32, .f32⟩
  | .hbm, ⟨14, _⟩ => ⟨S64x128, .f32⟩
  | .hbm, ⟨15, _⟩ => ⟨S128, .f32⟩
  | .hbm, ⟨16, _⟩ => ⟨S1x128, .f32⟩
  | .hbm, ⟨17, _⟩ => ⟨S64x128, .bf16⟩
  | .hbm, ⟨18, _⟩ => ⟨S64x64, .bf16⟩
  | .hbm, ⟨19, _⟩ => ⟨S64x64, .bf16⟩
  | .hbm, ⟨20, _⟩ => ⟨S64x32, .bf16⟩
  | .hbm, ⟨21, _⟩ => ⟨S1x64, .f32⟩
  | .hbm, ⟨22, _⟩ => ⟨S1x64, .f32⟩
  | .hbm, ⟨23, _⟩ => ⟨S1x32, .f32⟩
  | .hbm, ⟨24, _⟩ => ⟨S100000x128, .bf16⟩
  | .hbm, ⟨25, _⟩ => ⟨S_, .i32⟩
  | .hbm, ⟨26, _⟩ => ⟨S1250000, .i32⟩
  | .hbm, ⟨27, _⟩ => ⟨S1250000, .i1⟩
  | .hbm, ⟨28, _⟩ => ⟨S_, .i32⟩
  | .hbm, ⟨29, _⟩ => ⟨S1250000, .i32⟩
  | .hbm, ⟨30, _⟩ => ⟨S1250000, .i32⟩
  | .hbm, ⟨31, _⟩ => ⟨S1250000, .i32⟩
  | .hbm, ⟨32, _⟩ => ⟨S1250000x1, .i32⟩
  | .hbm, ⟨33, _⟩ => ⟨S_, .i32⟩
  | .hbm, ⟨34, _⟩ => ⟨S1250000x1, .i32⟩
  | .hbm, ⟨35, _⟩ => ⟨S1250000x2, .i32⟩
  | .hbm, ⟨36, _⟩ => ⟨S1250000x64, .bf16⟩
  | .hbm, ⟨37, _⟩ => ⟨S_, .i32⟩
  | .hbm, ⟨38, _⟩ => ⟨S1250000, .i32⟩
  | .hbm, ⟨39, _⟩ => ⟨S1250000, .i1⟩
  | .hbm, ⟨40, _⟩ => ⟨S_, .i32⟩
  | .hbm, ⟨41, _⟩ => ⟨S1250000, .i32⟩
  | .hbm, ⟨42, _⟩ => ⟨S1250000, .i32⟩
  | .hbm, ⟨43, _⟩ => ⟨S1250000, .i32⟩
  | .hbm, ⟨44, _⟩ => ⟨S1250000x1, .i32⟩
  | .hbm, ⟨45, _⟩ => ⟨S_, .i32⟩
  | .hbm, ⟨46, _⟩ => ⟨S1250000x1, .i32⟩
  | .hbm, ⟨47, _⟩ => ⟨S1250000x2, .i32⟩
  | .hbm, ⟨48, _⟩ => ⟨S1250000x64, .bf16⟩
  | .hbm, ⟨49, _⟩ => ⟨S1250000x64, .f32⟩
  | .hbm, ⟨50, _⟩ => ⟨S1250000x64, .f32⟩
  | .hbm, ⟨51, _⟩ => ⟨S1250000x64, .f32⟩
  | .hbm, ⟨52, _⟩ => ⟨S1250000x64, .bf16⟩
  | .hbm, ⟨53, _⟩ => ⟨S1250000x32, .f32⟩
  | .local _ .vmem, ⟨0, _⟩ => ⟨S10000x64, .f32⟩
  | .local _ .vmem, ⟨1, _⟩ => ⟨S10000x64, .f32⟩
  | .local _ .vmem, ⟨2, _⟩ => ⟨S64x128, .bf16⟩
  | .local _ .vmem, ⟨3, _⟩ => ⟨S1x128, .f32⟩
  | .local _ .vmem, ⟨4, _⟩ => ⟨S10000x128, .bf16⟩
  | .local _ .vmem, ⟨5, _⟩ => ⟨S10000x128, .bf16⟩
  | .local _ .vmem, ⟨6, _⟩ => ⟨S5000x64, .f32⟩
  | .local _ .vmem, ⟨7, _⟩ => ⟨S5000x64, .f32⟩
  | .local _ .vmem, ⟨8, _⟩ => ⟨S5000x64, .bf16⟩
  | .local _ .vmem, ⟨9, _⟩ => ⟨S5000x64, .bf16⟩
  | .local _ .vmem, ⟨10, _⟩ => ⟨S64x64, .bf16⟩
  | .local _ .vmem, ⟨11, _⟩ => ⟨S1x64, .f32⟩
  | .local _ .vmem, ⟨12, _⟩ => ⟨S64x64, .bf16⟩
  | .local _ .vmem, ⟨13, _⟩ => ⟨S1x64, .f32⟩
  | .local _ .vmem, ⟨14, _⟩ => ⟨S64x32, .bf16⟩
  | .local _ .vmem, ⟨15, _⟩ => ⟨S1x32, .f32⟩
  | .local _ .vmem, ⟨16, _⟩ => ⟨S5000x32, .f32⟩
  | .local _ .vmem, ⟨17, _⟩ => ⟨S5000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_2 : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x32 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x32 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  concatenates_S64x64_S64x64_S64x128_d1 : Shape.Concatenates [S64x64, S64x64] S64x128 1
  concatenates_S64_S64_S128_d0 : Shape.Concatenates [S64, S64] S128 0
  shapeCasts_S128_S1x128 : S128.ShapeCasts S1x128
  bitsLt_bf16_f32 : FTy.bits .bf16 < FTy.bits .f32
  shapeCasts_S64_S1x64 : S64.ShapeCasts S1x64
  shapeCasts_S32_S1x32 : S32.ShapeCasts S1x32
  inb_S10000x64_S10000x64_0_0 : ∀ a, (![0, 0] : Fin 2 → Nat) a + S10000x64.size a ≤ S10000x64.size a
  h_S10000x64 : 0 < S10000x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  packedbf16_S10000x128_S10000x128_0_0 : (Rect.unit (s := S10000x128) ![0, 0] S10000x128.size inb_S10000x128_S10000x128_0_0).PackedRows (EltTy.packing .bf16)
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S1250000x1 : S_.BroadcastsInDim S1250000x1 (![] : Fin 0 → Fin S1250000x1.rank)
  concatenates_S1250000x1_S1250000x1_S1250000x2_d1 : Shape.Concatenates [S1250000x1, S1250000x1] S1250000x2 1
  inb_S5000x64_S5000x64_0_0 : ∀ a, (![0, 0] : Fin 2 → Nat) a + S5000x64.size a ≤ S5000x64.size a
  h_S5000x64 : 0 < S5000x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  dot_S10000x64_S64x128_S10000x128_1_0_0_1_n_n_wf : DotDims.WF S10000x64 S64x128 S10000x128 [1] [0] [0] [1] [] []
  gather_S100000x128_S1250000x2_S1250000x64_1_0_n_n_01_1_164_wf : GatherDims.WF S100000x128 S1250000x2 S1250000x64 [1] [0] [] [0, 1] [] 1 ![1, 64]
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .bf16 = 32 ∨ (Rect.block (s := S64x128) S64x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .bf16 = 32 ∨ (Rect.block (s := S100000x128) S10000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S1250000x64.size a
  hwx1_0 : ∀ i : grid1.Coords, EltTy.bits .f32 = 32 ∨ (Rect.block (s := S1250000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S1250000x64.size a
  hwx1_1 : ∀ i : grid1.Coords, EltTy.bits .bf16 = 32 ∨ (Rect.block (s := S1250000x64) S5000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .bf16 = 32 ∨ (Rect.block (s := S64x64) S64x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .bf16 = 32 ∨ (Rect.block (s := S64x64) S64x64.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x32.size a ≤ S64x32.size a
  hwx1_6 : ∀ i : grid1.Coords, EltTy.bits .bf16 = 32 ∨ (Rect.block (s := S64x32) S64x32.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x32.size a ≤ S1x32.size a
  hwx1_7 : ∀ i : grid1.Coords, EltTy.bits .f32 = 32 ∨ (Rect.block (s := S1x32) S1x32.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x32.size a ≤ S1250000x32.size a
  hwx1_8 : ∀ i : grid1.Coords, EltTy.bits .f32 = 32 ∨ (Rect.block (s := S1250000x32) S5000x32.size (cc1_transform_8 i) (hinb1_8 i)).WholeWords (EltTy.packing .f32)

variable [Facts₀]

def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x128_S1250000x2_S1250000x64_1_0_n_n_01_1_164 : GatherDims S100000x128 S1250000x2 S1250000x64 where
  offsetDims := [1]
  collapsedSliceDims := [0]
  operandBatchingDims := []
  startIndicesBatchingDims := []
  startIndexMap := [0, 1]
  indexVectorDim := 1
  sliceSizes := ![1, 64]
  wf := gather_S100000x128_S1250000x2_S1250000x64_1_0_n_n_01_1_164_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S64x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v9) S1x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v33) S5000x32.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x64 : Shape := ⟨2, ![100000, 64]⟩
abbrev S1250000x64 : Shape := ⟨2, ![1250000, 64]⟩
abbrev S1250000 : Shape := ⟨1, ![1250000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x64 : Shape := ⟨2, ![1, 64]⟩
abbrev S_ : Shape := ⟨0, ![]⟩
abbrev S1250000x1 : Shape := ⟨2, ![1250000, 1]⟩
abbrev S1250000x32 : Shape := ⟨2, ![1250000, 32]⟩
abbrev S1x32 : Shape := ⟨2, ![1, 32]⟩

abbrev nBuf : Space → Nat
  | .hbm => 63
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1250000x64, .f32⟩
  | .hbm, ⟨2, _⟩ => ⟨S1250000, .i32⟩
  | .hbm, ⟨3, _⟩ => ⟨S1250000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x32, .f32⟩
  | .hbm, ⟨13, _⟩ => ⟨S32, .f32⟩
  | .hbm, ⟨14, _⟩ => ⟨S100000x64, .f32⟩
  | .hbm, ⟨15, _⟩ => ⟨S1x64, .f32⟩
  | .hbm, ⟨16, _⟩ => ⟨S100000x64, .f32⟩
  | .hbm, ⟨17, _⟩ => ⟨S100000x64, .f32⟩
  | .hbm, ⟨18, _⟩ => ⟨S100000x64, .f32⟩
  | .hbm, ⟨19, _⟩ => ⟨S1x64, .f32⟩
  | .hbm, ⟨20, _⟩ => ⟨S100000x64, .f32⟩
  | .hbm, ⟨21, _⟩ => ⟨S100000x64, .f32⟩
  | .hbm, ⟨22, _⟩ => ⟨S1250000x64, .f32⟩
  | .hbm, ⟨23, _⟩ => ⟨S1x64, .f32⟩
  | .hbm, ⟨24, _⟩ => ⟨S1250000x64, .f32⟩
  | .hbm, ⟨25, _⟩ => ⟨S1250000x64, .f32⟩
  | .hbm, ⟨26, _⟩ => ⟨S_, .i32⟩
  | .hbm, ⟨27, _⟩ => ⟨S1250000, .i32⟩
  | .hbm, ⟨28, _⟩ => ⟨S1250000, .i1⟩
  | .hbm, ⟨29, _⟩ => ⟨S_, .i32⟩
  | .hbm, ⟨30, _⟩ => ⟨S1250000, .i32⟩
  | .hbm, ⟨31, _⟩ => ⟨S1250000, .i32⟩
  | .hbm, ⟨32, _⟩ => ⟨S1250000, .i32⟩
  | .hbm, ⟨33, _⟩ => ⟨S1250000x1, .i32⟩
  | .hbm, ⟨34, _⟩ => ⟨S1250000x64, .f32⟩
  | .hbm, ⟨35, _⟩ => ⟨S_, .i32⟩
  | .hbm, ⟨36, _⟩ => ⟨S1250000, .i32⟩
  | .hbm, ⟨37, _⟩ => ⟨S1250000, .i1⟩
  | .hbm, ⟨38, _⟩ => ⟨S_, .i32⟩
  | .hbm, ⟨39, _⟩ => ⟨S1250000, .i32⟩
  | .hbm, ⟨40, _⟩ => ⟨S1250000, .i32⟩
  | .hbm, ⟨41, _⟩ => ⟨S1250000, .i32⟩
  | .hbm, ⟨42, _⟩ => ⟨S1250000x1, .i32⟩
  | .hbm, ⟨43, _⟩ => ⟨S1250000x64, .f32⟩
  | .hbm, ⟨44, _⟩ => ⟨S1250000x64, .f32⟩
  | .hbm, ⟨45, _⟩ => ⟨S1250000x64, .f32⟩
  | .hbm, ⟨46, _⟩ => ⟨S_, .f32⟩
  | .hbm, ⟨47, _⟩ => ⟨S1250000x64, .f32⟩
  | .hbm, ⟨48, _⟩ => ⟨S1250000x64, .f32⟩
  | .hbm, ⟨49, _⟩ => ⟨S1250000x64, .f32⟩
  | .hbm, ⟨50, _⟩ => ⟨S1x64, .f32⟩
  | .hbm, ⟨51, _⟩ => ⟨S1250000x64, .f32⟩
  | .hbm, ⟨52, _⟩ => ⟨S1250000x64, .f32⟩
  | .hbm, ⟨53, _⟩ => ⟨S_, .f32⟩
  | .hbm, ⟨54, _⟩ => ⟨S1250000x64, .f32⟩
  | .hbm, ⟨55, _⟩ => ⟨S1250000x64, .f32⟩
  | .hbm, ⟨56, _⟩ => ⟨S1250000x32, .f32⟩
  | .hbm, ⟨57, _⟩ => ⟨S1x32, .f32⟩
  | .hbm, ⟨58, _⟩ => ⟨S1250000x32, .f32⟩
  | .hbm, ⟨59, _⟩ => ⟨S1250000x32, .f32⟩
  | .hbm, ⟨60, _⟩ => ⟨S_, .f32⟩
  | .hbm, ⟨61, _⟩ => ⟨S1250000x32, .f32⟩
  | .hbm, ⟨62, _⟩ => ⟨S1250000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_1 : Ref sig .tc := ⟨.hbm, 35, rfl⟩
abbrev main_v19 : Ref sig .tc := ⟨.hbm, 36, rfl⟩
abbrev main_v20 : Ref sig .tc := ⟨.hbm, 37, rfl⟩
abbrev main_c_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call0_cst : Ref sig .tc := ⟨.hbm, 46, rfl⟩
abbrev main_call0_v0 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call1_cst : Ref sig .tc := ⟨.hbm, 53, rfl⟩
abbrev main_call1_v0 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_call2_cst : Ref sig .tc := ⟨.hbm, 60, rfl⟩
abbrev main_call2_v0 : Ref sig .tc := ⟨.hbm, 61, rfl⟩
abbrev main_v38 : Ref sig .tc := ⟨.hbm, 62, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S1250000x64_0_1 : S1x64.BroadcastsInDim S1250000x64 (![0, 1] : Fin 2 → Fin S1250000x64.rank)
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S1250000x64 : S_.BroadcastsInDim S1250000x64 (![] : Fin 0 → Fin S1250000x64.rank)
  bcast_S32_S1x32_1 : S32.BroadcastsInDim S1x32 (![1] : Fin 1 → Fin S1x32.rank)
  bcast_S1x32_S1250000x32_0_1 : S1x32.BroadcastsInDim S1250000x32 (![0, 1] : Fin 2 → Fin S1250000x32.rank)
  bcast_S_S1250000x32 : S_.BroadcastsInDim S1250000x32 (![] : Fin 0 → Fin S1250000x32.rank)
  dot_S100000x64_S64x64_S100000x64_1_0_0_1_n_n_wf : DotDims.WF S100000x64 S64x64 S100000x64 [1] [0] [0] [1] [] []
  dot_S1250000x64_S64x64_S1250000x64_1_0_0_1_n_n_wf : DotDims.WF S1250000x64 S64x64 S1250000x64 [1] [0] [0] [1] [] []
  gather_S100000x64_S1250000x1_S1250000x64_1_0_n_n_0_1_164_wf : GatherDims.WF S100000x64 S1250000x1 S1250000x64 [1] [0] [] [0] [] 1 ![1, 64]
  dot_S1250000x64_S64x32_S1250000x32_1_0_0_1_n_n_wf : DotDims.WF S1250000x64 S64x32 S1250000x32 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S1250000x64_S64x64_S1250000x64_1_0_0_1_n_n : DotDims S1250000x64 S64x64 S1250000x64 where
  lhsContracting := [1]
  rhsContracting := [0]
  lhsNonContracting := [0]
  rhsNonContracting := [1]
  lhsBatch := []
  rhsBatch := []
  wf := dot_S1250000x64_S64x64_S1250000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def dot_S1250000x64_S64x32_S1250000x32_1_0_0_1_n_n : DotDims S1250000x64 S64x32 S1250000x32 where
  lhsContracting := [1]
  rhsContracting := [0]
  lhsNonContracting := [0]
  rhsNonContracting := [1]
  lhsBatch := []
  rhsBatch := []
  wf := dot_S1250000x64_S64x32_S1250000x32_1_0_0_1_n_n_wf

class Facts : Prop extends Facts₀ where

variable [Facts]
-- ==== Proof.KRun.lean ====
/-
  The run of the idealized kernel program, with its result named.

  The program is two pipelined regions with host operations before and between them. Run from any memory, every fair
  execution terminates, nothing faults, the fourteen argument arrays end as launched, and the result array ends
  holding what the SECOND region's write-backs leave in it: the contents of the buffers at the last segment boundary,
  read at the result's buffer. What those contents are, as a function of the arguments, is the business of the
  modules that follow; here only the run is stated, over the segments and the boundary contents the frame proof builds.
-/
import proofs.«161950_j61838939128121_2_alg».proof.Proof.Gen.KernelIdeal.Frame

set_option maxRecDepth 16384

noncomputable section

namespace Cert.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every fair execution terminates without a fault; the result array ends at the last boundary's contents `W4` read
    at its buffer, and each argument array as launched. -/
theorem run : θ_run defs (onTc (τ := τ) (main (F := F))) ⟨m, fun _ => 0, ρ⟩ (fun r => ∀ c : Dev nD,
      r.2.mem ((c.tc : Thread nD τ).loc main_v33) = W4 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v33 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c)⟩)

/-- The last boundary's contents at the result's buffer are what the second region's write-backs leave in its output
    window's array. -/
theorem result_eq (c : Dev nD) :
    W4 m ρ c (Proc.devRef .tc main_v33) = (dat1 (V3 m ρ) c).arrAt 8 cfg1.N :=
  W4_arr m ρ c 8

end Cert.KRun

end
-- ==== Proof.HostTerms.lean ====
/-
  What the kernel program's host operations build, named.

  Before the first region: the two node-projection weight matrices side by side as one [64, 128] matrix, their two
  bias vectors end to end as one [1, 128] row, and each remaining bias as a one-row matrix. Between the regions: for
  each endpoint array an index pair per edge — (normalized row, fixed column), the column 0 for the source's half of the
  table and 64 for the destination's — the two row lookups into the projected table, and their sum. Format changes
  are kept as written; at the ideal values they are the identity.
-/
import proofs.«161950_j61838939128121_2_alg».proof.Proof.Gen.KernelIdeal

noncomputable section

namespace Cert.HostTerms

open Cert.KernelIdeal Cert.KernelIdeal.Gen Idealize.ShloMosaic

variable {F : FTy → Type} [FloatOps F]

/-- The two projection matrices side by side, columns 0–63 the first and 64–127 the second. -/
def wcat (a b : (⟨S64x64, .f32⟩ : BufTy).Contents (Elt F)) : (⟨S64x128, .bf16⟩ : BufTy).Contents (Elt F) :=
  truncf .bf16 (concatenate S64x128 1 [⟨S64x64, a⟩, ⟨S64x64, b⟩] concatenates_S64x64_S64x64_S64x128_d1) bitsLt_bf16_f32

/-- The two projection biases end to end, as one row. -/
def bcat (a b : (⟨S64, .f32⟩ : BufTy).Contents (Elt F)) : (⟨S1x128, .f32⟩ : BufTy).Contents (Elt F) :=
  shapeCast S1x128 (concatenate S128 0 [⟨S64, a⟩, ⟨S64, b⟩] concatenates_S64_S64_S128_d0) shapeCasts_S128_S1x128

/-- A [64, 64] weight matrix in the matrix unit's input format. -/
def w64 (a : (⟨S64x64, .f32⟩ : BufTy).Contents (Elt F)) : (⟨S64x64, .bf16⟩ : BufTy).Contents (Elt F) :=
  truncf .bf16 a bitsLt_bf16_f32
/-- The [64, 32] weight matrix in the matrix unit's input format. -/
def w32 (a : (⟨S64x32, .f32⟩ : BufTy).Contents (Elt F)) : (⟨S64x32, .bf16⟩ : BufTy).Contents (Elt F) :=
  truncf .bf16 a bitsLt_bf16_f32
/-- A 64-long bias as a one-row matrix. -/
def brow64 (a : (⟨S64, .f32⟩ : BufTy).Contents (Elt F)) : (⟨S1x64, .f32⟩ : BufTy).Contents (Elt F) :=
  shapeCast S1x64 a shapeCasts_S64_S1x64
/-- The 32-long bias as a one-row matrix. -/
def brow32 (a : (⟨S32, .f32⟩ : BufTy).Contents (Elt F)) : (⟨S1x32, .f32⟩ : BufTy).Contents (Elt F) :=
  shapeCast S1x32 a shapeCasts_S32_S1x32

/-- The endpoint words normalized, elementwise: a negative index counts from the end of the 100000 rows. -/
def normAll (w : (⟨S1250000, .i32⟩ : BufTy).Contents (Elt F)) : (⟨S1250000, .i32⟩ : BufTy).Contents (Elt F) :=
  select (cmpi .slt w (broadcastInDim S1250000 ![] bcast_S_S1250000 (constantI S_ 32 0#32)))
    (addi w (broadcastInDim S1250000 ![] bcast_S_S1250000 (constantI S_ 32 100000#32))) w

/-- Per edge the pair (normalized row, the fixed column `col`). -/
def idxPair (w : (⟨S1250000, .i32⟩ : BufTy).Contents (Elt F)) (col : BitVec 32) : (⟨S1250000x2, .i32⟩ : BufTy).Contents (Elt F) :=
  concatenate S1250000x2 1
    [⟨S1250000x1, broadcastInDim S1250000x1 ![0] bcast_S1250000_S1250000x1_0 (normAll (F := F) w)⟩,
     ⟨S1250000x1, broadcastInDim S1250000x1 ![] bcast_S_S1250000x1 (constantI S_ 32 col)⟩]
    concatenates_S1250000x1_S1250000x1_S1250000x2_d1

/-- The sum, per edge, of the source's row of the table's first half and the destination's row of its second half. -/
def gsum (tbl : (⟨S100000x128, .bf16⟩ : BufTy).Contents (Elt F)) (src dst : (⟨S1250000, .i32⟩ : BufTy).Contents (Elt F)) :
    (⟨S1250000x64, .bf16⟩ : BufTy).Contents (Elt F) :=
  truncf .bf16
    (addf (extf .f32 (Host.gather gather_S100000x128_S1250000x2_S1250000x64_1_0_n_n_01_1_164 tbl (idxPair (F := F) src 0#32)) bitsLt_bf16_f32)
          (extf .f32 (Host.gather gather_S100000x128_S1250000x2_S1250000x64_1_0_n_n_01_1_164 tbl (idxPair (F := F) dst 64#32)) bitsLt_bf16_f32))
    bitsLt_bf16_f32

end Cert.HostTerms

end
-- ==== Proof.Host.lean ====
/-
  The buffers the two regions read, as the host operations leave them.

  Region 0 is entered after the first stretch of host operations: it reads the node features as launched, the two
  projection matrices side by side and their biases end to end. Region 1 is entered after region 0's write-backs and the
  second stretch: it reads the edge features as launched, the gathered sum built from the projected table region 0 left
  and from the two endpoint arrays as launched, and the three remaining weight matrices and biases in the forms the first
  stretch gave them (nothing in between writes them). Each fact is the fold of the host operations over the launch
  memory, read at one buffer.
-/
import proofs.«161950_j61838939128121_2_alg».proof.Proof.Gen.KernelIdeal.Frame
import proofs.«161950_j61838939128121_2_alg».proof.Proof.HostTerms
import Idealize.ShloMosaic.Lib.StableHlo.Run

set_option maxRecDepth 16384

noncomputable section

namespace Cert.Host

open Cert.KernelIdeal Cert.KernelIdeal.Gen Cert.HostTerms
open Idealize.ShloMosaic Idealize.ShloMosaic.TcCoe Idealize.SL.Sem Idealize.ShloMosaic.StableHlo

variable {F : FTy → Type} [FloatOps F]

/-! ## The first stretch, over any contents `X` it starts from -/

section Stretch0
variable (X : Valuation τ sig (Elt F))

theorem s0_v3 : after (hostOps0 (F := F)) X (Proc.devRef .tc main_v3)
    = wcat (F := F) (X (Proc.devRef .tc main_arg4)) (X (Proc.devRef .tc main_arg6)) := by
  after_results; rfl
theorem s0_v2 : after (hostOps0 (F := F)) X (Proc.devRef .tc main_v2)
    = bcat (F := F) (X (Proc.devRef .tc main_arg5)) (X (Proc.devRef .tc main_arg7)) := by
  after_results; rfl
theorem s0_v4 : after (hostOps0 (F := F)) X (Proc.devRef .tc main_v4) = w64 (F := F) (X (Proc.devRef .tc main_arg8)) := by
  after_results; rfl
theorem s0_v5 : after (hostOps0 (F := F)) X (Proc.devRef .tc main_v5) = w64 (F := F) (X (Proc.devRef .tc main_arg10)) := by
  after_results; rfl
theorem s0_v6 : after (hostOps0 (F := F)) X (Proc.devRef .tc main_v6) = w32 (F := F) (X (Proc.devRef .tc main_arg12)) := by
  after_results; rfl
theorem s0_v7 : after (hostOps0 (F := F)) X (Proc.devRef .tc main_v7) = brow64 (F := F) (X (Proc.devRef .tc main_arg9)) := by
  after_results; rfl
theorem s0_v8 : after (hostOps0 (F := F)) X (Proc.devRef .tc main_v8) = brow64 (F := F) (X (Proc.devRef .tc main_arg11)) := by
  after_results; rfl
theorem s0_v9 : after (hostOps0 (F := F)) X (Proc.devRef .tc main_v9) = brow32 (F := F) (X (Proc.devRef .tc main_arg13)) := by
  after_results; rfl
theorem s0_arg0 : after (hostOps0 (F := F)) X (Proc.devRef .tc main_arg0) = X (Proc.devRef .tc main_arg0) := by
  after_results
theorem s0_arg1 : after (hostOps0 (F := F)) X (Proc.devRef .tc main_arg1) = X (Proc.devRef .tc main_arg1) := by
  after_results
theorem s0_arg2 : after (hostOps0 (F := F)) X (Proc.devRef .tc main_arg2) = X (Proc.devRef .tc main_arg2) := by
  after_results
theorem s0_arg3 : after (hostOps0 (F := F)) X (Proc.devRef .tc main_arg3) = X (Proc.devRef .tc main_arg3) := by
  after_results

end Stretch0

/-! ## The second stretch, over any contents `X` it starts from -/

section Stretch1
variable (X : Valuation τ sig (Elt F))

set_option maxHeartbeats 4000000 in
theorem s1_v32 : after (hostOps1 (F := F)) X (Proc.devRef .tc main_v32)
    = gsum (F := F) (X (Proc.devRef .tc main_v10)) (X (Proc.devRef .tc main_arg2)) (X (Proc.devRef .tc main_arg3)) := by
  unfold gsum idxPair normAll
  after_results_simp <;> rfl
theorem s1_arg1 : after (hostOps1 (F := F)) X (Proc.devRef .tc main_arg1) = X (Proc.devRef .tc main_arg1) := by
  after_results
theorem s1_v4 : after (hostOps1 (F := F)) X (Proc.devRef .tc main_v4) = X (Proc.devRef .tc main_v4) := by
  after_results
theorem s1_v5 : after (hostOps1 (F := F)) X (Proc.devRef .tc main_v5) = X (Proc.devRef .tc main_v5) := by
  after_results
theorem s1_v6 : after (hostOps1 (F := F)) X (Proc.devRef .tc main_v6) = X (Proc.devRef .tc main_v6) := by
  after_results
theorem s1_v7 : after (hostOps1 (F := F)) X (Proc.devRef .tc main_v7) = X (Proc.devRef .tc main_v7) := by
  after_results
theorem s1_v8 : after (hostOps1 (F := F)) X (Proc.devRef .tc main_v8) = X (Proc.devRef .tc main_v8) := by
  after_results
theorem s1_v9 : after (hostOps1 (F := F)) X (Proc.devRef .tc main_v9) = X (Proc.devRef .tc main_v9) := by
  after_results

end Stretch1

end Cert.Host

end
-- ==== Proof.Boundary.lean ====
/-
  The two regions' inputs, in terms of the launch memory.

  The buffers' contents at the segment boundaries are a fold: launch memory, first stretch of host operations, region 0's
  write-backs, second stretch, region 1's write-backs. Read at the buffers region 0 reads (`V1`) the fold stops after the
  first stretch; at the buffers region 1 reads (`V3`) it passes back through the second stretch and through region 0,
  which writes only the projected table. So every input of either region is a launched argument array, a host term
  of launched arrays, or — for the gathered sum — a host term of the projected table region 0 leaves.
-/
import proofs.«161950_j61838939128121_2_alg».proof.Proof.Host

set_option maxRecDepth 16384

noncomputable section

namespace Cert.Boundary

open Cert.KernelIdeal Cert.KernelIdeal.Gen Cert.HostTerms
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## What region 0 reads -/

theorem v1_arg0 (c : Dev nD) : V1 m ρ c main_arg0 = m ((c : Thread nD τ).loc main_arg0) :=
  Host.s0_arg0 (W0 m ρ c)
theorem v1_v3 (c : Dev nD) : V1 m ρ c main_v3
    = wcat (F := F) (m ((c : Thread nD τ).loc main_arg4)) (m ((c : Thread nD τ).loc main_arg6)) :=
  Host.s0_v3 (W0 m ρ c)
theorem v1_v2 (c : Dev nD) : V1 m ρ c main_v2
    = bcat (F := F) (m ((c : Thread nD τ).loc main_arg5)) (m ((c : Thread nD τ).loc main_arg7)) :=
  Host.s0_v2 (W0 m ρ c)

/-! ## What region 1 reads -/

/-- A buffer region 0 does not write passes through it. -/
theorem w2_keep (c : Dev nD) (b : Ref sig .tc) (hb : ∀ w, Pipeline.arrRef spec0 w ≠ b) :
    W2 m ρ c (Proc.devRef .tc b) = W1 m ρ c (Proc.devRef .tc b) := W2_of_ne m ρ c b hb

theorem v3_arg1 (c : Dev nD) : V3 m ρ c main_arg1 = m ((c : Thread nD τ).loc main_arg1) :=
  (Host.s1_arg1 (W2 m ρ c)).trans ((w2_keep m ρ c main_arg1 (by decide)).trans (Host.s0_arg1 (W0 m ρ c)))
theorem v3_v4 (c : Dev nD) : V3 m ρ c main_v4 = w64 (F := F) (m ((c : Thread nD τ).loc main_arg8)) :=
  (Host.s1_v4 (W2 m ρ c)).trans ((w2_keep m ρ c main_v4 (by decide)).trans (Host.s0_v4 (W0 m ρ c)))
theorem v3_v5 (c : Dev nD) : V3 m ρ c main_v5 = w64 (F := F) (m ((c : Thread nD τ).loc main_arg10)) :=
  (Host.s1_v5 (W2 m ρ c)).trans ((w2_keep m ρ c main_v5 (by decide)).trans (Host.s0_v5 (W0 m ρ c)))
theorem v3_v6 (c : Dev nD) : V3 m ρ c main_v6 = w32 (F := F) (m ((c : Thread nD τ).loc main_arg12)) :=
  (Host.s1_v6 (W2 m ρ c)).trans ((w2_keep m ρ c main_v6 (by decide)).trans (Host.s0_v6 (W0 m ρ c)))
theorem v3_v7 (c : Dev nD) : V3 m ρ c main_v7 = brow64 (F := F) (m ((c : Thread nD τ).loc main_arg9)) :=
  (Host.s1_v7 (W2 m ρ c)).trans ((w2_keep m ρ c main_v7 (by decide)).trans (Host.s0_v7 (W0 m ρ c)))
theorem v3_v8 (c : Dev nD) : V3 m ρ c main_v8 = brow64 (F := F) (m ((c : Thread nD τ).loc main_arg11)) :=
  (Host.s1_v8 (W2 m ρ c)).trans ((w2_keep m ρ c main_v8 (by decide)).trans (Host.s0_v8 (W0 m ρ c)))
theorem v3_v9 (c : Dev nD) : V3 m ρ c main_v9 = brow32 (F := F) (m ((c : Thread nD τ).loc main_arg13)) :=
  (Host.s1_v9 (W2 m ρ c)).trans ((w2_keep m ρ c main_v9 (by decide)).trans (Host.s0_v9 (W0 m ρ c)))

/-- The gathered sum region 1 reads: the host term of the projected table as region 0 leaves it (what its write-backs
    fold to) and of the two endpoint arrays as launched. -/
theorem v3_v32 (c : Dev nD) : V3 m ρ c main_v32
    = gsum (F := F) ((dat0 (V1 m ρ) c).arrAt 3 cfg0.N) (m ((c : Thread nD τ).loc main_arg2)) (m ((c : Thread nD τ).loc main_arg3)) := by
  refine (Host.s1_v32 (W2 m ρ c)).trans ?_
  rw [show W2 m ρ c (Proc.devRef .tc main_v10) = (dat0 (V1 m ρ) c).arrAt 3 cfg0.N from W2_arr m ρ c 3,
    show W2 m ρ c (Proc.devRef .tc main_arg2) = m ((c : Thread nD τ).loc main_arg2) from
      (w2_keep m ρ c main_arg2 (by decide)).trans (Host.s0_arg2 (W0 m ρ c)),
    show W2 m ρ c (Proc.devRef .tc main_arg3) = m ((c : Thread nD τ).loc main_arg3) from
      (w2_keep m ρ c main_arg3 (by decide)).trans (Host.s0_arg3 (W0 m ρ c))]

end Cert.Boundary

end
-- ==== Proof.Blocks0.lean ====
/-
  Region 0 (the node projection), where its blocks sit.

  The grid has 10 points. Point `t` reads rows `10000·t … 10000·t + 9999` of the node features and writes the same rows
  of the projected table; the weight matrix and the bias row are read whole at every point. So an element of an input
  block is an element of its array at a row shifted by `10000·t`, and the ten output blocks tile the table's 100000 rows.
-/
import proofs.«161950_j61838939128121_2_alg».proof.Proof.Gen.KernelIdeal.Frame
import Idealize.ShloMosaic.Lib.Pipeline.Value
import Idealize.ShloMosaic.Lib.ValueIdx

set_option maxRecDepth 16384

noncomputable section

namespace Cert.Blocks0

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-- The printed index maps at a point, decided once over the grid: a window over the rows moves with the point on
    axis 0, a weight or bias window stays at block (0, 0). -/
structure IdxFacts (t : Fin cfg0.N) : Prop where
  w0 : win0_0.index t (0 : Fin 2) = t.val ∧ win0_0.index t (1 : Fin 2) = 0
  w1 : win0_1.index t (0 : Fin 2) = 0 ∧ win0_1.index t (1 : Fin 2) = 0
  w2 : win0_2.index t (0 : Fin 2) = 0 ∧ win0_2.index t (1 : Fin 2) = 0
  w3 : win0_3.index t (0 : Fin 2) = t.val ∧ win0_3.index t (1 : Fin 2) = 0

theorem idx_facts_all : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0) :=
  (by decide +kernel : ∀ t : Fin grid0.N, _)

theorem idx_facts (t : Fin cfg0.N) : IdxFacts t :=
  have h := idx_facts_all t
  ⟨h.1, h.2.1, h.2.2.1, h.2.2.2⟩

/-- Window 0's block at point `t` is rows `10000·t … 10000·t + 9999` of its array. -/
theorem blk_0 (c : Dev nD) (t : Fin cfg0.N) (p : Fin 10000) (k : Fin 64) (i : S100000x64.Idx)
    (hi0 : (i 0).val = 10000 * t.val + p.val) (hi1 : (i 1).val = k.val) :
    (iblk0 V c 0 t : Vec F S10000x64 .f32) (ix2 p k) = (V c main_arg0 : S100000x64.Idx → Elt F .f32) i := by
  have e0 := (idx_facts t).w0.1
  have e1 := (idx_facts t).w0.2
  unfold iblk0
  rw [View.read_apply]
  show V c main_arg0 _ = V c main_arg0 _
  congr 1
  funext a
  apply Fin.ext
  match a with
  | ⟨0, _⟩ => show win0_0.index t 0 * 10000 + 1 * p.val = (i 0).val; rw [e0, hi0]; omega
  | ⟨1, _⟩ => show win0_0.index t 1 * 64 + 1 * k.val = (i 1).val; rw [e1, hi1]; omega

/-- Window 1 is its whole array at every point. -/
theorem blk_1 (c : Dev nD) (t : Fin cfg0.N) : (iblk0 V c 1 t : Vec F S64x128 .bf16) = (V c main_v3 : S64x128.Idx → Elt F .bf16) := by
  have e0 := (idx_facts t).w1.1
  have e1 := (idx_facts t).w1.2
  funext y
  unfold iblk0
  rw [View.read_apply]
  show V c main_v3 _ = V c main_v3 _
  congr 1
  funext a
  apply Fin.ext
  match a with
  | ⟨0, _⟩ => show win0_1.index t 0 * 64 + 1 * (y 0).val = (y 0).val; rw [e0]; omega
  | ⟨1, _⟩ => show win0_1.index t 1 * 128 + 1 * (y 1).val = (y 1).val; rw [e1]; omega

/-- Window 2 is its whole array at every point. -/
theorem blk_2 (c : Dev nD) (t : Fin cfg0.N) : (iblk0 V c 2 t : Vec F S1x128 .f32) = (V c main_v2 : S1x128.Idx → Elt F .f32) := by
  have e0 := (idx_facts t).w2.1
  have e1 := (idx_facts t).w2.2
  funext y
  unfold iblk0
  rw [View.read_apply]
  show V c main_v2 _ = V c main_v2 _
  congr 1
  funext a
  apply Fin.ext
  match a with
  | ⟨0, _⟩ => show win0_2.index t 0 * 1 + 1 * (y 0).val = (y 0).val; rw [e0]; omega
  | ⟨1, _⟩ => show win0_2.index t 1 * 128 + 1 * (y 1).val = (y 1).val; rw [e1]; omega

/-- An index of the output array is in point `t`'s block iff each coordinate is in the block's range on its axis. -/
theorem mem_blk_3 (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v10).slice (win0_3.rect t)).set ↔ _
  rw [View.set_slice_whole, Rect.mem_set_unit]
  exact Iff.rfl

/-- The output's blocks tile its array: row `r` lies in the block of point `r / 10000`, and every point writes back. -/
theorem cover_3 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 10000 :=
    ⟨⟨(i 0).val / 10000, by show _ < grid0.N; rw [N_0]; omega⟩, rfl⟩
  have e0 := (idx_facts t).w3.1
  have e1 := (idx_facts t).w3.2
  refine ⟨t, flush0_3 t, ?_⟩
  rw [mem_blk_3]
  intro a
  match a with
  | ⟨0, _⟩ => show win0_3.index t 0 * 10000 ≤ (i 0).val ∧ (i 0).val < win0_3.index t 0 * 10000 + 10000; rw [e0, ht]; omega
  | ⟨1, _⟩ => show win0_3.index t 1 * 128 ≤ (i 1).val ∧ (i 1).val < win0_3.index t 1 * 128 + 128; rw [e1]; omega

end Cert.Blocks0

end
-- ==== Proof.EdgeSpec.lean ====
/-
  The edge update, row by row.

  Every layer here is an affine map over 64 input features, `x ↦ ∑ₖ xₖ · w k j + b j`, followed (on the edges) by a
  rectifier `max · 0`. The three edge layers act on one edge at a time: an edge's output row depends on that edge's own
  feature row and on the sum `g` of the two projected node rows the edge's endpoints select, and on nothing else. So the
  whole computation is stated for ONE row: `aff` is the affine map at an output feature, `edgeRow` the three rectified
  layers applied to an edge's feature row `x` and gathered sum `g`. A block of edges, the whole edge array and the
  plain formula of the result are all this one function read at the rows in question.

  The node side: both projections read node row `rowOf w` for an index word `w` — a negative index counted from the
  end, then clamped into the table's 100000 rows, as an array lookup does.
-/
import Idealize.ShloMosaic.PureOps.Ideal
import Idealize.ShloMosaic.Lib.ValueIdx

noncomputable section

namespace Cert.EdgeSpec

open Idealize.ShloMosaic Idealize.ShloMosaic.ValueIdx

/-- The rectifier's threshold, kept as the word both programs write. -/
abbrev zero : EReal := Ideal.ofBits .f32 0x00000000#32

/-- The rectifier. -/
def relu (x : EReal) : EReal := max x zero

/-- One affine layer over 64 input features, at output feature `j`: `∑ₖ xₖ · w k j + b j`. -/
def aff {d : Nat} (x : Fin 64 → EReal) (w : Fin 64 → Fin d → EReal) (b : Fin d → EReal) (j : Fin d) : EReal :=
  ∑ k : Fin 64, x k * w k j + b j

/-- The three rectified edge layers on one edge: its feature row `x`, the sum `g` of its endpoints' projected rows. -/
def edgeRow (x g : Fin 64 → EReal) (wek : Fin 64 → Fin 64 → EReal) (bek : Fin 64 → EReal)
    (w1 : Fin 64 → Fin 64 → EReal) (b1 : Fin 64 → EReal) (w2 : Fin 64 → Fin 32 → EReal) (b2 : Fin 32 → EReal)
    (o : Fin 32) : EReal :=
  relu (aff (fun k => relu (aff (fun j => relu (g j + aff x wek bek j)) w1 b1 k)) w2 b2 o)

/-- A matrix read by its two coordinates. -/
abbrev mat {a b : Nat} (x : (⟨2, ![a, b]⟩ : Shape).Idx → EReal) : Fin a → Fin b → EReal := fun i j => x (ix2 i j)
/-- A vector read by its coordinate. -/
abbrev vec {a : Nat} (x : (⟨1, ![a]⟩ : Shape).Idx → EReal) : Fin a → EReal := fun i => x (ix1 i)
/-- A one-row matrix read as a vector. -/
abbrev row0 {a : Nat} (x : (⟨2, ![1, a]⟩ : Shape).Idx → EReal) : Fin a → EReal := fun i => x (ix2 (0 : Fin 1) i)

/-- An index word as an array lookup normalizes it: a negative index counts from the end of the 100000 rows. -/
def normIdx (w : BitVec 32) : BitVec 32 := Scalar.select (IntOp.cmpi .slt w 0#32) (IntOp.addi w 100000#32) w

/-- The node row an index word selects: normalized, read as a signed integer, clamped into the 100000 rows. -/
def rowOf (w : BitVec 32) : Fin 100000 := ⟨min (normIdx w).toInt.toNat 99999, by omega⟩

/-- THE RESULT at edge `e`, output feature `o`, as a function of the fourteen argument arrays: the edge layers on the
    edge's feature row and on the sum of the source node's first projection and the destination node's second. -/
def out (feat : (⟨2, ![100000, 64]⟩ : Shape).Idx → EReal) (efeat : (⟨2, ![1250000, 64]⟩ : Shape).Idx → EReal)
    (src dst : (⟨1, ![1250000]⟩ : Shape).Idx → BitVec 32)
    (wvsk : (⟨2, ![64, 64]⟩ : Shape).Idx → EReal) (bvsk : (⟨1, ![64]⟩ : Shape).Idx → EReal)
    (wvrk : (⟨2, ![64, 64]⟩ : Shape).Idx → EReal) (bvrk : (⟨1, ![64]⟩ : Shape).Idx → EReal)
    (wek : (⟨2, ![64, 64]⟩ : Shape).Idx → EReal) (bek : (⟨1, ![64]⟩ : Shape).Idx → EReal)
    (w1 : (⟨2, ![64, 64]⟩ : Shape).Idx → EReal) (b1 : (⟨1, ![64]⟩ : Shape).Idx → EReal)
    (w2 : (⟨2, ![64, 32]⟩ : Shape).Idx → EReal) (b2 : (⟨1, ![32]⟩ : Shape).Idx → EReal)
    (e : Fin 1250000) (o : Fin 32) : EReal :=
  edgeRow (fun k => efeat (ix2 e k))
    (fun j => aff (fun k => feat (ix2 (rowOf (src (ix1 e))) k)) (mat wvsk) (vec bvsk) j
            + aff (fun k => feat (ix2 (rowOf (dst (ix1 e))) k)) (mat wvrk) (vec bvrk) j)
    (mat wek) (vec bek) (mat w1) (vec b1) (mat w2) (vec b2) o

end Cert.EdgeSpec

end
-- ==== Proof.LibContract.lean ====
/-
  A contraction over ONE axis, read as a sum over that axis's coordinate.

  A matrix product on the TensorCore (into a zero accumulator) and the host's `dot_general` are, at the ideal values, the
  sum over the contraction index of the operands' products. When one axis is contracted the contraction index is a single
  coordinate `i < n`, and the sum is the `Fin n`-indexed sum of whatever the two operands are at the operand indices
  that coordinate selects.
-/
import Idealize.ShloMosaic.PureOps.Ideal.Laws
import Idealize.ShloMosaic.Lib.ValueIdx

namespace Idealize.ShloMosaic.ContractSingle

open Idealize.ShloMosaic.ValueIdx

/-- The sum over a one-axis contraction index, with the operands' factors named at each coordinate `i` of the contracted
    axis (`hl`, `hr`), is the sum of the named factors' products over `i`. -/
theorem sum_single {sl sr so : Shape} (d : DotDims sl sr so) (n : Nat) (hrank : d.contr.rank = 1)
    (hsize : d.contr.size ⟨0, by omega⟩ = n) (l : sl.Idx → EReal) (r : sr.Idx → EReal) (j : so.Idx) (L R : Fin n → EReal)
    (hl : ∀ i : Fin n, l (d.lhsIdx j ((contrEquiv1 d n hrank hsize).symm i)) = L i)
    (hr : ∀ i : Fin n, r (d.rhsIdx j ((contrEquiv1 d n hrank hsize).symm i)) = R i) :
    ∑ k : d.contr.Idx, l (d.lhsIdx j k) * r (d.rhsIdx j k) = ∑ i : Fin n, L i * R i := by
  rw [← Equiv.sum_comp (contrEquiv1 d n hrank hsize).symm]
  exact Finset.sum_congr rfl fun i _ => by rw [hl i, hr i]

/-- A TensorCore matrix product into the zero accumulator, one axis contracted, read at an output index. -/
theorem matmul_zero_single {sl sr so : Shape} {φ₁ φ₂ : FTy} (d : DotDims sl sr so) (prec : Option ContractPrecision) (n : Nat)
    (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.matmul d prec lhs rhs (constant so .f32 0x00000000#32) j = ∑ i : Fin n, L i * R i :=
  (Ideal.matmul_constant_zero_apply d prec lhs rhs j).trans (sum_single d n hrank hsize lhs rhs j L R hl hr)

/-- The host's `dot_general`, one axis contracted, read at an output index. -/
theorem dotGeneral_single {sl sr so : Shape} {φ₁ φ₂ : FTy} (d : DotDims sl sr so) (prec : Option ContractPrecision)
    (sched : HostSchedule) (n : Nat) (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.dotGeneral d prec sched lhs rhs j = ∑ i : Fin n, L i * R i :=
  (Ideal.dotGeneral_apply d prec sched lhs rhs j).trans (sum_single d n hrank hsize lhs rhs j L R hl hr)

end Idealize.ShloMosaic.ContractSingle
-- ==== Proof.PayNode.lean ====
/-
  The node projection's block body, read at one element.

  The body multiplies a block of 10000 node rows (64 features each) by a 64 × 128 weight matrix on the matrix unit,
  starting from a zero accumulator, and adds a bias row broadcast over the block's rows. At the ideal values the format
  changes are the identity, so the element at row `p`, output feature `q` is the affine layer
  `∑ₖ x p k · w k q + b q` of the row's features.
-/
import proofs.«161950_j61838939128121_2_alg».proof.Proof.Gen.KernelIdeal.Skeleton
import proofs.«161950_j61838939128121_2_alg».proof.Proof.EdgeSpec
import proofs.«161950_j61838939128121_2_alg».proof.Proof.LibContract
import Idealize.ShloMosaic.Lib.ValueLayout
import Idealize.ShloMosaic.Lib.Pipeline.Value

noncomputable section

namespace Cert.PayNode

open Cert.KernelIdeal Cert.KernelIdeal.Gen Cert.EdgeSpec Idealize.ShloMosaic Idealize.ShloMosaic.ValueIdx

/-- The 10000 × 64 by 64 × 128 product into the zero accumulator, at row `p` and column `q`: the sum over the shared
    axis of the left operand's row `p` times the right operand's column `q`. -/
theorem mm_node (h : FVec Ideal S10000x64 .bf16) (w : FVec Ideal S64x128 .bf16) (p : Fin 10000) (q : Fin 128) :
    FloatOps.matmul dot_S10000x64_S64x128_S10000x128_1_0_0_1_n_n none h w (constant S10000x128 .f32 0x00000000#32) (ix2 p q)
      = ∑ k : Fin 64, h (ix2 p k) * w (ix2 k q) := by
  refine ContractSingle.matmul_zero_single dot_S10000x64_S64x128_S10000x128_1_0_0_1_n_n none 64 rfl rfl h w (ix2 p q)
    (fun k => h (ix2 p k)) (fun k => w (ix2 k q)) (fun i => ?_) (fun i => ?_)
  · have hi := contrEquiv1_symm_val dot_S10000x64_S64x128_S10000x128_1_0_0_1_n_n 64 rfl rfl i
    refine congrArg h (funext fun ax => Fin.ext ?_)
    match ax with
    | ⟨0, _⟩ =>
      show (dot_S10000x64_S64x128_S10000x128_1_0_0_1_n_n.lhsIdx (ix2 p q) _ 0).val = p.val
      unfold DotDims.lhsIdx
      rw [dif_neg (show ¬(0 : Fin S10000x64.rank) ∈ dot_S10000x64_S64x128_S10000x128_1_0_0_1_n_n.lhsBatch by decide),
        dif_pos (show (0 : Fin S10000x64.rank) ∈ dot_S10000x64_S64x128_S10000x128_1_0_0_1_n_n.lhsNonContracting by decide)]
      rfl
    | ⟨1, _⟩ =>
      exact (dot_S10000x64_S64x128_S10000x128_1_0_0_1_n_n.lhsIdx_val_of_single (cl := 1) rfl (ix2 p q) _).trans hi
  · have hi := contrEquiv1_symm_val dot_S10000x64_S64x128_S10000x128_1_0_0_1_n_n 64 rfl rfl i
    refine congrArg w (funext fun ax => Fin.ext ?_)
    match ax with
    | ⟨0, _⟩ =>
      exact (dot_S10000x64_S64x128_S10000x128_1_0_0_1_n_n.rhsIdx_val_of_single (cr := 0) rfl (ix2 p q) _).trans hi
    | ⟨1, _⟩ =>
      show (dot_S10000x64_S64x128_S10000x128_1_0_0_1_n_n.rhsIdx (ix2 p q) _ 1).val = q.val
      unfold DotDims.rhsIdx
      rw [dif_neg (show ¬(1 : Fin S64x128.rank) ∈ dot_S10000x64_S64x128_S10000x128_1_0_0_1_n_n.rhsBatch by decide),
        dif_pos (show (1 : Fin S64x128.rank) ∈ dot_S10000x64_S64x128_S10000x128_1_0_0_1_n_n.rhsNonContracting by decide)]
      rfl

/-- The block body at row `p`, output feature `q`: the affine layer of row `p`'s 64 features. -/
theorem pay_node (v0 : Vec Ideal S10000x64 .f32) (v2 : Vec Ideal S64x128 .bf16) (v5 : Vec Ideal S1x128 .f32)
    (p : Fin 10000) (q : Fin 128) :
    k0_pay1 (F := Ideal) v0 v2 v5 (ix2 p q) = aff (fun k => v0 (ix2 p k)) (mat v2) (row0 v5) q := by
  unfold k0_pay1 aff
  refine (congrArg₂ (· + ·) (mm_node _ _ p q) (broadcastTo_1b_ab_apply _ _ p q)).trans ?_
  rw [shapeCast_self, shapeCast_self]
  rfl

end Cert.PayNode

end
-- ==== Proof.Final0.lean ====
/-
  Region 0 (the node projection): the projected table after all ten points.

  Point `t` writes rows `10000·t … 10000·t + 9999` of the table, and what it writes at row `p` of its block, feature `q`
  is the affine layer of node row `10000·t + p` (the block body read at an element, on the block of node rows the point
  loads). The ten blocks tile the table, so the table ends holding, at row `n` and feature `q`, the affine layer of node
  row `n` — one function of the three arrays the region reads.
-/
import proofs.«161950_j61838939128121_2_alg».proof.Proof.Blocks0
import proofs.«161950_j61838939128121_2_alg».proof.Proof.PayNode
import proofs.«161950_j61838939128121_2_alg».proof.Proof.EdgeSpec
import Idealize.ShloMosaic.Lib.Pipeline.Value

set_option maxRecDepth 16384

noncomputable section

namespace Cert.Final0

open Cert.KernelIdeal Cert.KernelIdeal.Gen Cert.EdgeSpec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The projected table: row `n`, column `q` is the affine layer on node row `n`. -/
def comb (x : S100000x64.Idx → EReal) (w : S64x128.Idx → EReal) (b : S1x128.Idx → EReal) : S100000x128.Idx → EReal :=
  fun i => aff (fun k => x (ix2 (⟨(i 0).val, idx2_lt0 i⟩ : Fin 100000) k)) (mat w) (row0 b) (⟨(i 1).val, idx2_lt1 i⟩ : Fin 128)

/-- The body's accesses start at the origin of their buffers. -/
theorem hz : (![0, 0] : Fin 2 → Nat) = fun _ => 0 := funext fun a => by fin_cases a <;> rfl

/-- The block body on a block `x0` that holds rows `10000·tt …` of the node array `A`: its element at `y` is the table's
    element at the index `i` whose row is `y`'s shifted by `10000·tt` and whose column is `y`'s. -/
theorem at_block (A : S100000x64.Idx → EReal) (x0 : Vec Ideal S10000x64 .f32) (w : Vec Ideal S64x128 .bf16)
    (b : Vec Ideal S1x128 .f32) (tt : Nat)
    (h0 : ∀ (p : Fin 10000) (k : Fin 64) (hb : 10000 * tt + p.val < 100000), x0 (ix2 p k) = A (ix2 ⟨10000 * tt + p.val, hb⟩ k))
    (y : S10000x128.Idx) (i : S100000x128.Idx) (hi0 : (i 0).val = 10000 * tt + (y 0).val) (hi1 : (i 1).val = (y 1).val) :
    k0_pay1 (F := Ideal) x0 w b y = comb A w b i := by
  obtain ⟨p, q, rfl⟩ : ∃ (p : Fin 10000) (q : Fin 128), y = ix2 p q := ⟨y 0, y 1, eq_ix2 y⟩
  have hi0' : (i 0).val = 10000 * tt + p.val := hi0
  have hi1' : (i 1).val = q.val := hi1
  have hb : 10000 * tt + p.val < 100000 := by have := idx2_lt0 i; omega
  have e0 : (⟨(i 0).val, idx2_lt0 i⟩ : Fin 100000) = ⟨10000 * tt + p.val, hb⟩ := Fin.ext hi0'
  have e1 : (⟨(i 1).val, idx2_lt1 i⟩ : Fin 128) = q := Fin.ext hi1'
  rw [PayNode.pay_node]
  unfold comb
  rw [e0, e1]
  exact congrArg (fun f => aff f (mat w) (row0 b) q) (funext fun k => h0 p k hb)

/-- What point `t` writes back is block `t` of the table. -/
theorem flushed (c : Dev nD) (t : Fin cfg0.N) :
    (dat0 V c).flushed 3 t = ((cfg0.win 3).blk t).view.read (Elt Ideal) (comb (V c main_arg0) (V c main_v3) (V c main_v2)) := by
  show (cfg0.win 3).cut (grid0.coords t) ((dat0 V c).after 3 t) = _
  rw [after0_3]
  unfold out0_3
  rw [View.canon_unit_zero hz]
  simp only [View.ld_unit_zero (S := S10000x64) hz, View.ld_unit_zero (S := S64x128) hz, View.ld_unit_zero (S := S1x128) hz]
  rw [Blocks0.blk_1 V c t, Blocks0.blk_2 V c t]
  funext j
  show k0_pay1 (F := Ideal) _ _ _ j = comb _ _ _ (((cfg0.win 3).blk t).view.emb j)
  refine at_block _ _ _ _ t.val (fun p k hb => Blocks0.blk_0 V c t p k _ rfl rfl) j _ ?_ ?_
  · show win0_3.index t 0 * 10000 + 1 * (j 0).val = 10000 * t.val + (j 0).val
    rw [(Blocks0.idx_facts t).w3.1]; omega
  · show win0_3.index t 1 * 128 + 1 * (j 1).val = (j 1).val
    rw [(Blocks0.idx_facts t).w3.2]; omega

/-- The table after the region: the affine layer of every node row. -/
theorem final (c : Dev nD) :
    (dat0 (F := Ideal) V c).arrAt 3 cfg0.N = comb (V c main_arg0) (V c main_v3) (V c main_v2) :=
  (dat0 V c).arrAt_eq_of_cover 3 (comb (V c main_arg0) (V c main_v3) (V c main_v2)) (fun t _ => flushed V c t) Blocks0.cover_3

end Cert.Final0

end
-- ==== Proof.Blocks1.lean ====
/-
  Region 1 (the edge layers), where its blocks sit.

  The grid has 250 points. Point `t` reads rows `5000·t … 5000·t + 4999` of the edge features and of the gathered sums
  and writes the same rows of the result; the three weight matrices and the three bias rows are read whole at every
  point. So an element of a row block is an element of its array at a row shifted by `5000·t`, and the 250 output blocks
  tile the result's 1250000 rows.
-/
import proofs.«161950_j61838939128121_2_alg».proof.Proof.Gen.KernelIdeal.Frame
import Idealize.ShloMosaic.Lib.Pipeline.Value
import Idealize.ShloMosaic.Lib.ValueIdx

set_option maxRecDepth 16384

noncomputable section

namespace Cert.Blocks1

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-- The printed index maps at a point, decided once over the grid: a window over the rows moves with the point on
    axis 0, a weight or bias window stays at block (0, 0). -/
structure IdxFacts (t : Fin cfg1.N) : Prop where
  w0 : win1_0.index t (0 : Fin 2) = t.val ∧ win1_0.index t (1 : Fin 2) = 0
  w1 : win1_1.index t (0 : Fin 2) = t.val ∧ win1_1.index t (1 : Fin 2) = 0
  w2 : win1_2.index t (0 : Fin 2) = 0 ∧ win1_2.index t (1 : Fin 2) = 0
  w3 : win1_3.index t (0 : Fin 2) = 0 ∧ win1_3.index t (1 : Fin 2) = 0
  w4 : win1_4.index t (0 : Fin 2) = 0 ∧ win1_4.index t (1 : Fin 2) = 0
  w5 : win1_5.index t (0 : Fin 2) = 0 ∧ win1_5.index t (1 : Fin 2) = 0
  w6 : win1_6.index t (0 : Fin 2) = 0 ∧ win1_6.index t (1 : Fin 2) = 0
  w7 : win1_7.index t (0 : Fin 2) = 0 ∧ win1_7.index t (1 : Fin 2) = 0
  w8 : win1_8.index t (0 : Fin 2) = t.val ∧ win1_8.index t (1 : Fin 2) = 0

theorem idx_facts_all : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = t.val ∧ win1_8.index t (1 : Fin 2) = 0) :=
  (by decide +kernel : ∀ t : Fin grid1.N, _)

theorem idx_facts (t : Fin cfg1.N) : IdxFacts t :=
  have h := idx_facts_all t
  ⟨h.1, h.2.1, h.2.2.1, h.2.2.2.1, h.2.2.2.2.1, h.2.2.2.2.2.1, h.2.2.2.2.2.2.1, h.2.2.2.2.2.2.2.1, h.2.2.2.2.2.2.2.2⟩

/-- Window 0's block at point `t` is rows `5000·t … 5000·t + 4999` of its array. -/
theorem blk_0 (c : Dev nD) (t : Fin cfg1.N) (p : Fin 5000) (k : Fin 64) (i : S1250000x64.Idx)
    (hi0 : (i 0).val = 5000 * t.val + p.val) (hi1 : (i 1).val = k.val) :
    (iblk1 V c 0 t : Vec F S5000x64 .f32) (ix2 p k) = (V c main_arg1 : S1250000x64.Idx → Elt F .f32) i := by
  have e0 := (idx_facts t).w0.1
  have e1 := (idx_facts t).w0.2
  unfold iblk1
  rw [View.read_apply]
  show V c main_arg1 _ = V c main_arg1 _
  congr 1
  funext a
  apply Fin.ext
  match a with
  | ⟨0, _⟩ => show win1_0.index t 0 * 5000 + 1 * p.val = (i 0).val; rw [e0, hi0]; omega
  | ⟨1, _⟩ => show win1_0.index t 1 * 64 + 1 * k.val = (i 1).val; rw [e1, hi1]; omega

/-- Window 1's block at point `t` is rows `5000·t … 5000·t + 4999` of its array. -/
theorem blk_1 (c : Dev nD) (t : Fin cfg1.N) (p : Fin 5000) (k : Fin 64) (i : S1250000x64.Idx)
    (hi0 : (i 0).val = 5000 * t.val + p.val) (hi1 : (i 1).val = k.val) :
    (iblk1 V c 1 t : Vec F S5000x64 .bf16) (ix2 p k) = (V c main_v32 : S1250000x64.Idx → Elt F .bf16) i := by
  have e0 := (idx_facts t).w1.1
  have e1 := (idx_facts t).w1.2
  unfold iblk1
  rw [View.read_apply]
  show V c main_v32 _ = V c main_v32 _
  congr 1
  funext a
  apply Fin.ext
  match a with
  | ⟨0, _⟩ => show win1_1.index t 0 * 5000 + 1 * p.val = (i 0).val; rw [e0, hi0]; omega
  | ⟨1, _⟩ => show win1_1.index t 1 * 64 + 1 * k.val = (i 1).val; rw [e1, hi1]; omega

/-- Window 2 is its whole array at every point. -/
theorem blk_2 (c : Dev nD) (t : Fin cfg1.N) : (iblk1 V c 2 t : Vec F S64x64 .bf16) = (V c main_v4 : S64x64.Idx → Elt F .bf16) := by
  have e0 := (idx_facts t).w2.1
  have e1 := (idx_facts t).w2.2
  funext y
  unfold iblk1
  rw [View.read_apply]
  show V c main_v4 _ = V c main_v4 _
  congr 1
  funext a
  apply Fin.ext
  match a with
  | ⟨0, _⟩ => show win1_2.index t 0 * 64 + 1 * (y 0).val = (y 0).val; rw [e0]; omega
  | ⟨1, _⟩ => show win1_2.index t 1 * 64 + 1 * (y 1).val = (y 1).val; rw [e1]; omega

/-- Window 3 is its whole array at every point. -/
theorem blk_3 (c : Dev nD) (t : Fin cfg1.N) : (iblk1 V c 3 t : Vec F S1x64 .f32) = (V c main_v7 : S1x64.Idx → Elt F .f32) := by
  have e0 := (idx_facts t).w3.1
  have e1 := (idx_facts t).w3.2
  funext y
  unfold iblk1
  rw [View.read_apply]
  show V c main_v7 _ = V c main_v7 _
  congr 1
  funext a
  apply Fin.ext
  match a with
  | ⟨0, _⟩ => show win1_3.index t 0 * 1 + 1 * (y 0).val = (y 0).val; rw [e0]; omega
  | ⟨1, _⟩ => show win1_3.index t 1 * 64 + 1 * (y 1).val = (y 1).val; rw [e1]; omega

/-- Window 4 is its whole array at every point. -/
theorem blk_4 (c : Dev nD) (t : Fin cfg1.N) : (iblk1 V c 4 t : Vec F S64x64 .bf16) = (V c main_v5 : S64x64.Idx → Elt F .bf16) := by
  have e0 := (idx_facts t).w4.1
  have e1 := (idx_facts t).w4.2
  funext y
  unfold iblk1
  rw [View.read_apply]
  show V c main_v5 _ = V c main_v5 _
  congr 1
  funext a
  apply Fin.ext
  match a with
  | ⟨0, _⟩ => show win1_4.index t 0 * 64 + 1 * (y 0).val = (y 0).val; rw [e0]; omega
  | ⟨1, _⟩ => show win1_4.index t 1 * 64 + 1 * (y 1).val = (y 1).val; rw [e1]; omega

/-- Window 5 is its whole array at every point. -/
theorem blk_5 (c : Dev nD) (t : Fin cfg1.N) : (iblk1 V c 5 t : Vec F S1x64 .f32) = (V c main_v8 : S1x64.Idx → Elt F .f32) := by
  have e0 := (idx_facts t).w5.1
  have e1 := (idx_facts t).w5.2
  funext y
  unfold iblk1
  rw [View.read_apply]
  show V c main_v8 _ = V c main_v8 _
  congr 1
  funext a
  apply Fin.ext
  match a with
  | ⟨0, _⟩ => show win1_5.index t 0 * 1 + 1 * (y 0).val = (y 0).val; rw [e0]; omega
  | ⟨1, _⟩ => show win1_5.index t 1 * 64 + 1 * (y 1).val = (y 1).val; rw [e1]; omega

/-- Window 6 is its whole array at every point. -/
theorem blk_6 (c : Dev nD) (t : Fin cfg1.N) : (iblk1 V c 6 t : Vec F S64x32 .bf16) = (V c main_v6 : S64x32.Idx → Elt F .bf16) := by
  have e0 := (idx_facts t).w6.1
  have e1 := (idx_facts t).w6.2
  funext y
  unfold iblk1
  rw [View.read_apply]
  show V c main_v6 _ = V c main_v6 _
  congr 1
  funext a
  apply Fin.ext
  match a with
  | ⟨0, _⟩ => show win1_6.index t 0 * 64 + 1 * (y 0).val = (y 0).val; rw [e0]; omega
  | ⟨1, _⟩ => show win1_6.index t 1 * 32 + 1 * (y 1).val = (y 1).val; rw [e1]; omega

/-- Window 7 is its whole array at every point. -/
theorem blk_7 (c : Dev nD) (t : Fin cfg1.N) : (iblk1 V c 7 t : Vec F S1x32 .f32) = (V c main_v9 : S1x32.Idx → Elt F .f32) := by
  have e0 := (idx_facts t).w7.1
  have e1 := (idx_facts t).w7.2
  funext y
  unfold iblk1
  rw [View.read_apply]
  show V c main_v9 _ = V c main_v9 _
  congr 1
  funext a
  apply Fin.ext
  match a with
  | ⟨0, _⟩ => show win1_7.index t 0 * 1 + 1 * (y 0).val = (y 0).val; rw [e0]; omega
  | ⟨1, _⟩ => show win1_7.index t 1 * 32 + 1 * (y 1).val = (y 1).val; rw [e1]; omega

/-- An index of the output array is in point `t`'s block iff each coordinate is in the block's range on its axis. -/
theorem mem_blk_8 (t : Fin cfg1.N) (i : S1250000x32.Idx) :
    i ∈ ((cfg1.win 8).blk t).view.set ↔ ∀ a : Fin 2, win1_8.index t a * S5000x32.size a ≤ (i a).val ∧ (i a).val < win1_8.index t a * S5000x32.size a + S5000x32.size a := by
  show i ∈ ((View.whole main_v33).slice (win1_8.rect t)).set ↔ _
  rw [View.set_slice_whole, Rect.mem_set_unit]
  exact Iff.rfl

/-- The output's blocks tile its array: row `r` lies in the block of point `r / 5000`, and every point writes back. -/
theorem cover_8 (i : S1250000x32.Idx) : ∃ t : Fin cfg1.N, (cfg1.win 8).flush t = true ∧ i ∈ ((cfg1.win 8).blk t).view.set := by
  have hi0 : (i 0).val < 1250000 := (i 0).isLt
  have hi1 : (i 1).val < 32 := (i 1).isLt
  obtain ⟨t, ht⟩ : ∃ t : Fin cfg1.N, t.val = (i 0).val / 5000 :=
    ⟨⟨(i 0).val / 5000, by show _ < grid1.N; rw [N_1]; omega⟩, rfl⟩
  have e0 := (idx_facts t).w8.1
  have e1 := (idx_facts t).w8.2
  refine ⟨t, flush1_8 t, ?_⟩
  rw [mem_blk_8]
  intro a
  match a with
  | ⟨0, _⟩ => show win1_8.index t 0 * 5000 ≤ (i 0).val ∧ (i 0).val < win1_8.index t 0 * 5000 + 5000; rw [e0, ht]; omega
  | ⟨1, _⟩ => show win1_8.index t 1 * 32 ≤ (i 1).val ∧ (i 1).val < win1_8.index t 1 * 32 + 32; rw [e1]; omega

end Cert.Blocks1

end
-- ==== Proof.PayEdge.lean ====
/-
  The edge update's block body, read at one element.

  The body runs three layers over a block of 5000 edges. Each layer multiplies the block's rows (64 features) by a weight
  matrix on the matrix unit, from a zero accumulator, adds a bias row broadcast over the rows, and takes the maximum with
  zero; before the first maximum the block of gathered node sums is added in front. At the ideal values the format
  changes are the identity, so every layer acts on one row at a time, and the element at edge `p`, output feature `o`
  is the three rectified affine layers of that edge's feature row and gathered sum.
-/
import proofs.«161950_j61838939128121_2_alg».proof.Proof.Gen.KernelIdeal.Skeleton
import proofs.«161950_j61838939128121_2_alg».proof.Proof.EdgeSpec
import proofs.«161950_j61838939128121_2_alg».proof.Proof.LibContract
import Idealize.ShloMosaic.Lib.ValueLayout
import Idealize.ShloMosaic.Lib.Pipeline.Value

noncomputable section

namespace Cert.PayEdge

open Cert.KernelIdeal Cert.KernelIdeal.Gen Cert.EdgeSpec Idealize.ShloMosaic Idealize.ShloMosaic.ValueIdx

/-- The 5000 × 64 by 64 × 64 product into the zero accumulator, at row `p` and column `q`: the sum over the shared
    axis of the left operand's row `p` times the right operand's column `q`. -/
theorem mm_e64 (h : FVec Ideal S5000x64 .bf16) (w : FVec Ideal S64x64 .bf16) (p : Fin 5000) (q : Fin 64) :
    FloatOps.matmul dot_S5000x64_S64x64_S5000x64_1_0_0_1_n_n none h w (constant S5000x64 .f32 0x00000000#32) (ix2 p q)
      = ∑ k : Fin 64, h (ix2 p k) * w (ix2 k q) := by
  refine ContractSingle.matmul_zero_single dot_S5000x64_S64x64_S5000x64_1_0_0_1_n_n none 64 rfl rfl h w (ix2 p q)
    (fun k => h (ix2 p k)) (fun k => w (ix2 k q)) (fun i => ?_) (fun i => ?_)
  · have hi := contrEquiv1_symm_val dot_S5000x64_S64x64_S5000x64_1_0_0_1_n_n 64 rfl rfl i
    refine congrArg h (funext fun ax => Fin.ext ?_)
    match ax with
    | ⟨0, _⟩ =>
      show (dot_S5000x64_S64x64_S5000x64_1_0_0_1_n_n.lhsIdx (ix2 p q) _ 0).val = p.val
      unfold DotDims.lhsIdx
      rw [dif_neg (show ¬(0 : Fin S5000x64.rank) ∈ dot_S5000x64_S64x64_S5000x64_1_0_0_1_n_n.lhsBatch by decide),
        dif_pos (show (0 : Fin S5000x64.rank) ∈ dot_S5000x64_S64x64_S5000x64_1_0_0_1_n_n.lhsNonContracting by decide)]
      rfl
    | ⟨1, _⟩ =>
      exact (dot_S5000x64_S64x64_S5000x64_1_0_0_1_n_n.lhsIdx_val_of_single (cl := 1) rfl (ix2 p q) _).trans hi
  · have hi := contrEquiv1_symm_val dot_S5000x64_S64x64_S5000x64_1_0_0_1_n_n 64 rfl rfl i
    refine congrArg w (funext fun ax => Fin.ext ?_)
    match ax with
    | ⟨0, _⟩ =>
      exact (dot_S5000x64_S64x64_S5000x64_1_0_0_1_n_n.rhsIdx_val_of_single (cr := 0) rfl (ix2 p q) _).trans hi
    | ⟨1, _⟩ =>
      show (dot_S5000x64_S64x64_S5000x64_1_0_0_1_n_n.rhsIdx (ix2 p q) _ 1).val = q.val
      unfold DotDims.rhsIdx
      rw [dif_neg (show ¬(1 : Fin S64x64.rank) ∈ dot_S5000x64_S64x64_S5000x64_1_0_0_1_n_n.rhsBatch by decide),
        dif_pos (show (1 : Fin S64x64.rank) ∈ dot_S5000x64_S64x64_S5000x64_1_0_0_1_n_n.rhsNonContracting by decide)]
      rfl

/-- The same for the 5000 × 64 by 64 × 32 product. -/
theorem mm_e32 (h : FVec Ideal S5000x64 .bf16) (w : FVec Ideal S64x32 .bf16) (p : Fin 5000) (q : Fin 32) :
    FloatOps.matmul dot_S5000x64_S64x32_S5000x32_1_0_0_1_n_n none h w (constant S5000x32 .f32 0x00000000#32) (ix2 p q)
      = ∑ k : Fin 64, h (ix2 p k) * w (ix2 k q) := by
  refine ContractSingle.matmul_zero_single dot_S5000x64_S64x32_S5000x32_1_0_0_1_n_n none 64 rfl rfl h w (ix2 p q)
    (fun k => h (ix2 p k)) (fun k => w (ix2 k q)) (fun i => ?_) (fun i => ?_)
  · have hi := contrEquiv1_symm_val dot_S5000x64_S64x32_S5000x32_1_0_0_1_n_n 64 rfl rfl i
    refine congrArg h (funext fun ax => Fin.ext ?_)
    match ax with
    | ⟨0, _⟩ =>
      show (dot_S5000x64_S64x32_S5000x32_1_0_0_1_n_n.lhsIdx (ix2 p q) _ 0).val = p.val
      unfold DotDims.lhsIdx
      rw [dif_neg (show ¬(0 : Fin S5000x64.rank) ∈ dot_S5000x64_S64x32_S5000x32_1_0_0_1_n_n.lhsBatch by decide),
        dif_pos (show (0 : Fin S5000x64.rank) ∈ dot_S5000x64_S64x32_S5000x32_1_0_0_1_n_n.lhsNonContracting by decide)]
      rfl
    | ⟨1, _⟩ =>
      exact (dot_S5000x64_S64x32_S5000x32_1_0_0_1_n_n.lhsIdx_val_of_single (cl := 1) rfl (ix2 p q) _).trans hi
  · have hi := contrEquiv1_symm_val dot_S5000x64_S64x32_S5000x32_1_0_0_1_n_n 64 rfl rfl i
    refine congrArg w (funext fun ax => Fin.ext ?_)
    match ax with
    | ⟨0, _⟩ =>
      exact (dot_S5000x64_S64x32_S5000x32_1_0_0_1_n_n.rhsIdx_val_of_single (cr := 0) rfl (ix2 p q) _).trans hi
    | ⟨1, _⟩ =>
      show (dot_S5000x64_S64x32_S5000x32_1_0_0_1_n_n.rhsIdx (ix2 p q) _ 1).val = q.val
      unfold DotDims.rhsIdx
      rw [dif_neg (show ¬(1 : Fin S64x32.rank) ∈ dot_S5000x64_S64x32_S5000x32_1_0_0_1_n_n.rhsBatch by decide),
        dif_pos (show (1 : Fin S64x32.rank) ∈ dot_S5000x64_S64x32_S5000x32_1_0_0_1_n_n.rhsNonContracting by decide)]
      rfl

/-- The zero a rectifier compares with is the specification's threshold word. -/
theorem zero_word : (Scalar.ofBits .f32 0x00000000#32 : Ideal .f32) = zero := rfl

/-- A rectified 64 → 64 layer on any block `h` of rows: at row `p`, feature `k`, the rectified affine layer of row `p`. -/
theorem relu_layer64 (h : FVec Ideal S5000x64 .bf16) (w : Vec Ideal S64x64 .bf16) (b : Vec Ideal S1x64 .f32)
    (p : Fin 5000) (k : Fin 64) :
    maximumf (addf (matmul dot_S5000x64_S64x64_S5000x64_1_0_0_1_n_n none h (shapeCast S64x64 w shapeCasts_S64x64_S64x64 : FVec Ideal S64x64 .bf16)
          (constant S5000x64 .f32 0x00000000#32))
        (broadcastTo S5000x64 (shapeCast S1x64 b shapeCasts_S1x64_S1x64 : FVec Ideal S1x64 .f32) broadcasts_S1x64_S5000x64))
      (broadcast S5000x64 (Scalar.ofBits .f32 0x00000000#32 : Ideal .f32)) (ix2 p k)
      = relu (aff (fun j => h (ix2 p j)) (mat w) (row0 b) k) := by
  unfold relu aff
  refine congrArg (max · zero) ?_
  refine (congrArg₂ (· + ·) (mm_e64 _ _ p k) (broadcastTo_1b_ab_apply _ _ p k)).trans ?_
  rw [shapeCast_self, shapeCast_self]

/-- The first layer, with the gathered block `g` added in front of the affine part before the maximum. -/
theorem relu_layer64_add (h : FVec Ideal S5000x64 .bf16) (w : Vec Ideal S64x64 .bf16) (b : Vec Ideal S1x64 .f32)
    (g : Vec Ideal S5000x64 .bf16) (p : Fin 5000) (k : Fin 64) :
    maximumf (addf (extf .f32 (shapeCast S5000x64 g shapeCasts_S5000x64_S5000x64 : FVec Ideal S5000x64 .bf16) bitsLt_bf16_f32)
        (addf (matmul dot_S5000x64_S64x64_S5000x64_1_0_0_1_n_n none h (shapeCast S64x64 w shapeCasts_S64x64_S64x64 : FVec Ideal S64x64 .bf16)
            (constant S5000x64 .f32 0x00000000#32))
          (broadcastTo S5000x64 (shapeCast S1x64 b shapeCasts_S1x64_S1x64 : FVec Ideal S1x64 .f32) broadcasts_S1x64_S5000x64)))
      (broadcast S5000x64 (Scalar.ofBits .f32 0x00000000#32 : Ideal .f32)) (ix2 p k)
      = relu (g (ix2 p k) + aff (fun j => h (ix2 p j)) (mat w) (row0 b) k) := by
  unfold relu aff
  refine congrArg (max · zero) ?_
  refine (congrArg₂ (· + ·) (congrFun (shapeCast_self g shapeCasts_S5000x64_S5000x64) (ix2 p k))
    ((congrArg₂ (· + ·) (mm_e64 _ _ p k) (broadcastTo_1b_ab_apply _ _ p k)))).trans ?_
  rw [shapeCast_self, shapeCast_self]

/-- The rectified 64 → 32 output layer on any block `h` of rows. -/
theorem relu_layer32 (h : FVec Ideal S5000x64 .bf16) (w : Vec Ideal S64x32 .bf16) (b : Vec Ideal S1x32 .f32)
    (p : Fin 5000) (o : Fin 32) :
    maximumf (addf (matmul dot_S5000x64_S64x32_S5000x32_1_0_0_1_n_n none h (shapeCast S64x32 w shapeCasts_S64x32_S64x32 : FVec Ideal S64x32 .bf16)
          (constant S5000x32 .f32 0x00000000#32))
        (broadcastTo S5000x32 (shapeCast S1x32 b shapeCasts_S1x32_S1x32 : FVec Ideal S1x32 .f32) broadcasts_S1x32_S5000x32))
      (broadcast S5000x32 (Scalar.ofBits .f32 0x00000000#32 : Ideal .f32)) (ix2 p o)
      = relu (aff (fun j => h (ix2 p j)) (mat w) (row0 b) o) := by
  unfold relu aff
  refine congrArg (max · zero) ?_
  refine (congrArg₂ (· + ·) (mm_e32 _ _ p o) (broadcastTo_1b_ab_apply _ _ p o)).trans ?_
  rw [shapeCast_self, shapeCast_self]

/-- The block body at edge `p`, output feature `o`: the three rectified layers of edge `p`'s feature row `v0 p ·` and
    gathered sum `v9 p ·`. Each layer's input row is the previous layer's output row, read through a format change that
    is the identity here. -/
theorem pay_edge (v0 : Vec Ideal S5000x64 .f32) (v2 : Vec Ideal S64x64 .bf16) (v5 : Vec Ideal S1x64 .f32)
    (v9 : Vec Ideal S5000x64 .bf16) (v16 : Vec Ideal S64x64 .bf16) (v19 : Vec Ideal S1x64 .f32)
    (v26 : Vec Ideal S64x32 .bf16) (v29 : Vec Ideal S1x32 .f32) (p : Fin 5000) (o : Fin 32) :
    k1_pay1 (F := Ideal) v0 v2 v5 v9 v16 v19 v26 v29 (ix2 p o)
      = edgeRow (fun k => v0 (ix2 p k)) (fun j => v9 (ix2 p j)) (mat v2) (row0 v5) (mat v16) (row0 v19)
          (mat v26) (row0 v29) o := by
  unfold k1_pay1 edgeRow
  refine (relu_layer32 _ v26 v29 p o).trans ?_
  refine congrArg relu (congrArg (fun f => aff f (mat v26) (row0 v29) o) (funext fun k => ?_))
  refine (relu_layer64 _ v16 v19 p k).trans ?_
  refine congrArg relu (congrArg (fun f => aff f (mat v16) (row0 v19) k) (funext fun j => ?_))
  exact relu_layer64_add _ v2 v5 v9 p j

end Cert.PayEdge

end
-- ==== Proof.Final1.lean ====
/-
  Region 1 (the edge layers): the result array after all 250 points.

  Point `t` writes rows `5000·t … 5000·t + 4999` of the result, and what it writes at row `p` of its block, feature `o`
  is the three rectified layers of edge `5000·t + p`'s feature row and gathered sum (the block body read at an element,
  on the two row blocks the point loads). The 250 blocks tile the result, so it ends holding, at edge `e` and feature
  `o`, the three layers of edge `e`'s own two rows — one function of the eight arrays the region reads.
-/
import proofs.«161950_j61838939128121_2_alg».proof.Proof.Blocks1
import proofs.«161950_j61838939128121_2_alg».proof.Proof.PayEdge
import proofs.«161950_j61838939128121_2_alg».proof.Proof.EdgeSpec
import Idealize.ShloMosaic.Lib.Pipeline.Value

set_option maxRecDepth 16384

noncomputable section

namespace Cert.Final1

open Cert.KernelIdeal Cert.KernelIdeal.Gen Cert.EdgeSpec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The result: row `e`, column `o` is the three rectified layers on edge `e`'s feature row and gathered sum. -/
def edges (ef g : S1250000x64.Idx → EReal) (wek : S64x64.Idx → EReal) (bek : S1x64.Idx → EReal)
    (w1 : S64x64.Idx → EReal) (b1 : S1x64.Idx → EReal) (w2 : S64x32.Idx → EReal) (b2 : S1x32.Idx → EReal) :
    S1250000x32.Idx → EReal :=
  fun i => edgeRow (fun k => ef (ix2 (⟨(i 0).val, idx2_lt0 i⟩ : Fin 1250000) k))
    (fun j => g (ix2 (⟨(i 0).val, idx2_lt0 i⟩ : Fin 1250000) j))
    (mat wek) (row0 bek) (mat w1) (row0 b1) (mat w2) (row0 b2) (⟨(i 1).val, idx2_lt1 i⟩ : Fin 32)

/-- The body's accesses start at the origin of their buffers. -/
theorem hz : (![0, 0] : Fin 2 → Nat) = fun _ => 0 := funext fun a => by fin_cases a <;> rfl

/-- The block body on blocks `x0`, `x1` that hold rows `5000·tt …` of the edge-feature array `E` and of the gathered sums
    `G`: its element at `y` is the result's element at the index `i` whose row is `y`'s shifted by `5000·tt` and whose
    column is `y`'s. -/
theorem at_block (E G : S1250000x64.Idx → EReal) (x0 : Vec Ideal S5000x64 .f32) (x1 : Vec Ideal S5000x64 .bf16)
    (wek : Vec Ideal S64x64 .bf16) (bek : Vec Ideal S1x64 .f32) (w1 : Vec Ideal S64x64 .bf16) (b1 : Vec Ideal S1x64 .f32)
    (w2 : Vec Ideal S64x32 .bf16) (b2 : Vec Ideal S1x32 .f32) (tt : Nat)
    (h0 : ∀ (p : Fin 5000) (k : Fin 64) (hb : 5000 * tt + p.val < 1250000), x0 (ix2 p k) = E (ix2 ⟨5000 * tt + p.val, hb⟩ k))
    (h1 : ∀ (p : Fin 5000) (k : Fin 64) (hb : 5000 * tt + p.val < 1250000), x1 (ix2 p k) = G (ix2 ⟨5000 * tt + p.val, hb⟩ k))
    (y : S5000x32.Idx) (i : S1250000x32.Idx) (hi0 : (i 0).val = 5000 * tt + (y 0).val) (hi1 : (i 1).val = (y 1).val) :
    k1_pay1 (F := Ideal) x0 wek bek x1 w1 b1 w2 b2 y = edges E G wek bek w1 b1 w2 b2 i := by
  obtain ⟨p, o, rfl⟩ : ∃ (p : Fin 5000) (o : Fin 32), y = ix2 p o := ⟨y 0, y 1, eq_ix2 y⟩
  have hi0' : (i 0).val = 5000 * tt + p.val := hi0
  have hi1' : (i 1).val = o.val := hi1
  have hb : 5000 * tt + p.val < 1250000 := by have := idx2_lt0 i; omega
  have e0 : (⟨(i 0).val, idx2_lt0 i⟩ : Fin 1250000) = ⟨5000 * tt + p.val, hb⟩ := Fin.ext hi0'
  have e1 : (⟨(i 1).val, idx2_lt1 i⟩ : Fin 32) = o := Fin.ext hi1'
  rw [PayEdge.pay_edge]
  unfold edges
  rw [e0, e1]
  exact congrArg₂ (fun f g => edgeRow f g (mat wek) (row0 bek) (mat w1) (row0 b1) (mat w2) (row0 b2) o)
    (funext fun k => h0 p k hb) (funext fun k => h1 p k hb)

/-- What point `t` writes back is block `t` of the result. -/
theorem flushed (c : Dev nD) (t : Fin cfg1.N) :
    (dat1 V c).flushed 8 t = ((cfg1.win 8).blk t).view.read (Elt Ideal)
      (edges (V c main_arg1) (V c main_v32) (V c main_v4) (V c main_v7) (V c main_v5) (V c main_v8) (V c main_v6) (V c main_v9)) := by
  show (cfg1.win 8).cut (grid1.coords t) ((dat1 V c).after 8 t) = _
  rw [after1_8]
  unfold out1_8
  rw [View.canon_unit_zero hz]
  simp only [View.ld_unit_zero (S := S5000x64) hz, View.ld_unit_zero (S := S64x64) hz, View.ld_unit_zero (S := S1x64) hz,
    View.ld_unit_zero (S := S64x32) hz, View.ld_unit_zero (S := S1x32) hz]
  rw [Blocks1.blk_2 V c t, Blocks1.blk_3 V c t, Blocks1.blk_4 V c t, Blocks1.blk_5 V c t, Blocks1.blk_6 V c t, Blocks1.blk_7 V c t]
  funext j
  show k1_pay1 (F := Ideal) _ _ _ _ _ _ _ _ j = edges _ _ _ _ _ _ _ _ (((cfg1.win 8).blk t).view.emb j)
  refine at_block _ _ _ _ _ _ _ _ _ _ t.val (fun p k hb => Blocks1.blk_0 V c t p k _ rfl rfl)
    (fun p k hb => Blocks1.blk_1 V c t p k _ rfl rfl) j _ ?_ ?_
  · show win1_8.index t 0 * 5000 + 1 * (j 0).val = 5000 * t.val + (j 0).val
    rw [(Blocks1.idx_facts t).w8.1]; omega
  · show win1_8.index t 1 * 32 + 1 * (j 1).val = (j 1).val
    rw [(Blocks1.idx_facts t).w8.2]; omega

/-- The result after the region: the three layers of every edge's own feature row and gathered sum. -/
theorem final (c : Dev nD) :
    (dat1 (F := Ideal) V c).arrAt 8 cfg1.N
      = edges (V c main_arg1) (V c main_v32) (V c main_v4) (V c main_v7) (V c main_v5) (V c main_v8) (V c main_v6) (V c main_v9) :=
  (dat1 V c).arrAt_eq_of_cover 8
    (edges (V c main_arg1) (V c main_v32) (V c main_v4) (V c main_v7) (V c main_v5) (V c main_v8) (V c main_v6) (V c main_v9))
    (fun t _ => flushed V c t) Blocks1.cover_8

end Cert.Final1

end
-- ==== Proof.GatherPair.lean ====
/-
  A row lookup into the 128-wide projected table, 64 columns at a time.

  The kernel's program looks a row up by a PAIR of start components, (row, column): the gather takes, for edge `e`, the
  1 × 64 slice of the [100000, 128] table that starts at row `idx[e, 0]` and column `idx[e, 1]`, each start read as a
  signed integer and clamped so that the slice fits — the row into [0, 99999], the column into [0, 64]. Element
  `(e, j)` of the result is therefore the table at that row and at column (clamped start) + `j`.
-/
import proofs.«161950_j61838939128121_2_alg».proof.KernelIdeal
import Idealize.ShloMosaic.Lib.ValueIdx

noncomputable section

namespace Cert.GatherPair

open Cert.KernelIdeal Idealize.ShloMosaic Idealize.ShloMosaic.ValueIdx

variable [Cert.KernelIdeal.Facts] {α : Type}

local notation "gd" => gather_S100000x128_S1250000x2_S1250000x64_1_0_n_n_01_1_164

/-- The start-indices index `[e, cpt]` at which result row `e` reads component `cpt` of its start: the result's batch
    coordinate on axis 0, the component's number on the index vector's axis. -/
theorem siIdx_eq (e : Fin 1250000) (j : Fin 64) (cpt : Fin 2) (c : Fin (gd).startIndexMap.length) (hc : c.val = cpt.val) :
    (gd).siIdx (ix2 e j : S1250000x64.Idx) c = (ix2 e cpt : S1250000x2.Idx) := by
  funext b; refine Fin.ext ?_
  match b with
  | ⟨0, _⟩ => rfl
  | ⟨1, _⟩ => exact hc

/-- THE GATHER READ AT `(e, j)`: the table at the clamped start row and at the clamped start column plus `j`. -/
theorem gather_apply (x : S100000x128.Idx → α) (idx : IVec S1250000x2 32) (e : Fin 1250000) (j : Fin 64) :
    Host.gather gd x idx (ix2 e j : S1250000x64.Idx)
      = x (ix2 (⟨min (idx (ix2 e (0 : Fin 2))).toInt.toNat 99999, by omega⟩ : Fin 100000)
               (⟨min (idx (ix2 e (1 : Fin 2))).toInt.toNat 64 + j.val, by omega⟩ : Fin 128)) := by
  unfold Host.gather
  congr 1
  funext a
  refine Fin.ext ?_
  match a with
  | ⟨0, _⟩ =>
    show (gd).start (ix2 e j) idx 0 + (gd).batchCoord (ix2 e j) 0 + (gd).offCoord (ix2 e j) 0 = min (idx (ix2 e (0 : Fin 2))).toInt.toNat 99999
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gd).startIndexMap from by
      simp [gather_S100000x128_S1250000x2_S1250000x64_1_0_n_n_01_1_164])]
    rw [siIdx_eq e j 0 _ (by rfl)]
    rfl
  | ⟨1, _⟩ =>
    show (gd).start (ix2 e j) idx 1 + (gd).batchCoord (ix2 e j) 1 + (gd).offCoord (ix2 e j) 1 = min (idx (ix2 e (1 : Fin 2))).toInt.toNat 64 + j.val
    rw [GatherDims.batchCoord_eq_zero _ _ _ List.not_mem_nil]
    simp only [Nat.add_zero]
    unfold GatherDims.start GatherDims.offCoord
    rw [dif_pos (show (1 : Fin 2) ∈ (gd).startIndexMap from by
        simp [gather_S100000x128_S1250000x2_S1250000x64_1_0_n_n_01_1_164]),
      dif_pos (show (1 : Fin 2) ∈ (gd).sKept from (GatherDims.mem_sKept _ _).mpr
        ⟨by simp [gather_S100000x128_S1250000x2_S1250000x64_1_0_n_n_01_1_164], List.not_mem_nil⟩)]
    rw [siIdx_eq e j 1 _ (by rfl)]
    rfl

end Cert.GatherPair

end
-- ==== Proof.HostReads.lean ====
/-
  The arrays the kernel program's host operations build, read at an index.

  Side-by-side matrices and end-to-end vectors are two-piece concatenations: an index whose coordinate on the joined
  axis is below the first piece's extent reads the first piece there, one at or past it reads the second piece that
  extent less. A vector turned into a one-row matrix reads the vector at the column. A change of format is the
  identity at the ideal values. The index pairs are (normalized row, fixed column), so a row lookup by such a pair
  reads the table at the node row the endpoint word selects and at the fixed column plus the feature — which is how
  the one 128-wide projected table serves both projections, its left half the first and its right half the second.
-/
import proofs.«161950_j61838939128121_2_alg».proof.Proof.HostTerms
import proofs.«161950_j61838939128121_2_alg».proof.Proof.GatherPair
import proofs.«161950_j61838939128121_2_alg».proof.Proof.EdgeSpec
import Idealize.ShloMosaic.Lib.ValueIdx
import Idealize.ShloMosaic.Lib.Pipeline.Value
import Idealize.ShloMosaic.Lib.ValueLayout

noncomputable section

namespace Cert.HostReads

open Cert.KernelIdeal Cert.KernelIdeal.Gen Cert.HostTerms Cert.EdgeSpec Idealize.ShloMosaic Idealize.ShloMosaic.ValueIdx

/-! ## The index pairs -/

/-- The normalized endpoint array at edge `e` is the edge's word, normalized: the two thresholds are scalars spread
    over the array, so each reads its constant everywhere. -/
theorem normAll_at (w : (⟨S1250000, .i32⟩ : BufTy).Contents (Elt Ideal)) (e : Fin 1250000) :
    normAll (F := Ideal) w (ix1 e) = normIdx (w (ix1 e)) := by
  have h0 : broadcastInDim S1250000 ![] bcast_S_S1250000 (constantI S_ 32 0#32) (ix1 e) = 0#32 :=
    broadcastInDim_apply _ bcast_S_S1250000 (constantI S_ 32 0#32) (ix1 e) ix0 (fun a => a.elim0)
  have h1 : broadcastInDim S1250000 ![] bcast_S_S1250000 (constantI S_ 32 100000#32) (ix1 e) = 100000#32 :=
    broadcastInDim_apply _ bcast_S_S1250000 (constantI S_ 32 100000#32) (ix1 e) ix0 (fun a => a.elim0)
  unfold normAll normIdx
  show Scalar.select
      (IntOp.cmpi .slt (w (ix1 e)) (broadcastInDim S1250000 ![] bcast_S_S1250000 (constantI S_ 32 0#32) (ix1 e)))
      (IntOp.addi (w (ix1 e)) (broadcastInDim S1250000 ![] bcast_S_S1250000 (constantI S_ 32 100000#32) (ix1 e)))
      (w (ix1 e)) = _
  rw [h0, h1]

/-- The pair's first component at edge `e`: the normalized endpoint word. -/
theorem idxPair_row (w : (⟨S1250000, .i32⟩ : BufTy).Contents (Elt Ideal)) (col : BitVec 32) (e : Fin 1250000) :
    idxPair (F := Ideal) w col (ix2 e (0 : Fin 2)) = normIdx (w (ix1 e)) := by
  unfold idxPair
  refine (concatenate_pair_apply_left _ _ _ concatenates_S1250000x1_S1250000x1_S1250000x2_d1 (ix2 e (0 : Fin 2)) rfl
    (ix2 e (0 : Fin 1)) (fun b => by match b with | ⟨0, _⟩ => rfl | ⟨1, _⟩ => rfl)).trans ?_
  refine (broadcastInDim_apply _ bcast_S1250000_S1250000x1_0 (normAll (F := Ideal) w) (ix2 e (0 : Fin 1)) (ix1 e)
    (fun a => by
      match a with
      | ⟨0, _⟩ => show e.val = if (1250000 : Nat) = 1 then 0 else e.val; rw [if_neg (by decide)])).trans ?_
  exact normAll_at w e

/-- The pair's second component at edge `e`: the fixed column. -/
theorem idxPair_col (w : (⟨S1250000, .i32⟩ : BufTy).Contents (Elt Ideal)) (col : BitVec 32) (e : Fin 1250000) :
    idxPair (F := Ideal) w col (ix2 e (1 : Fin 2)) = col := by
  unfold idxPair
  refine (concatenate_pair_apply_right _ _ _ concatenates_S1250000x1_S1250000x1_S1250000x2_d1 (ix2 e (1 : Fin 2)) rfl rfl
    (ix2 e (0 : Fin 1))
    (fun b hb => by match b with | ⟨0, _⟩ => rfl | ⟨1, _⟩ => exact absurd rfl hb)
    rfl).trans ?_
  exact broadcastInDim_apply _ bcast_S_S1250000x1 (constantI S_ 32 col) (ix2 e (0 : Fin 1)) ix0 (fun a => a.elim0)

/-! ## The joined weights and biases -/

/-- Columns 0–63 of the joined matrix are the first matrix. -/
theorem wcat_left (a b : (⟨S64x64, .f32⟩ : BufTy).Contents (Elt Ideal)) (k j : Fin 64) :
    wcat (F := Ideal) a b (ix2 k (⟨j.val, by omega⟩ : Fin 128)) = a (ix2 k j) := by
  unfold wcat
  exact concatenate_pair_apply_left _ a b concatenates_S64x64_S64x64_S64x128_d1 (ix2 k (⟨j.val, by omega⟩ : Fin 128)) rfl
    (ix2 k j) (fun c => by match c with | ⟨0, _⟩ => rfl | ⟨1, _⟩ => rfl)

/-- Columns 64–127 of the joined matrix are the second matrix. -/
theorem wcat_right (a b : (⟨S64x64, .f32⟩ : BufTy).Contents (Elt Ideal)) (k j : Fin 64) :
    wcat (F := Ideal) a b (ix2 k (⟨64 + j.val, by omega⟩ : Fin 128)) = b (ix2 k j) := by
  unfold wcat
  exact concatenate_pair_apply_right _ a b concatenates_S64x64_S64x64_S64x128_d1 (ix2 k (⟨64 + j.val, by omega⟩ : Fin 128)) rfl rfl
    (ix2 k j)
    (fun c hc => by match c with | ⟨0, _⟩ => rfl | ⟨1, _⟩ => exact absurd rfl hc)
    (by show j.val + 64 = 64 + j.val; omega)

/-- Entries 0–63 of the joined bias row are the first bias. -/
theorem bcat_left (a b : (⟨S64, .f32⟩ : BufTy).Contents (Elt Ideal)) (j : Fin 64) :
    bcat (F := Ideal) a b (ix2 (0 : Fin 1) (⟨j.val, by omega⟩ : Fin 128)) = a (ix1 j) := by
  unfold bcat
  exact (shapeCast_a_1a_apply _ shapeCasts_S128_S1x128 (0 : Fin 1) (⟨j.val, by omega⟩ : Fin 128)).trans
    (concatenate_pair_apply_left _ a b concatenates_S64_S64_S128_d0 (ix1 (⟨j.val, by omega⟩ : Fin 128)) rfl
      (ix1 j) (fun c => by match c with | ⟨0, _⟩ => rfl))

/-- Entries 64–127 of the joined bias row are the second bias. -/
theorem bcat_right (a b : (⟨S64, .f32⟩ : BufTy).Contents (Elt Ideal)) (j : Fin 64) :
    bcat (F := Ideal) a b (ix2 (0 : Fin 1) (⟨64 + j.val, by omega⟩ : Fin 128)) = b (ix1 j) := by
  unfold bcat
  exact (shapeCast_a_1a_apply _ shapeCasts_S128_S1x128 (0 : Fin 1) (⟨64 + j.val, by omega⟩ : Fin 128)).trans
    (concatenate_pair_apply_right _ a b concatenates_S64_S64_S128_d0 (ix1 (⟨64 + j.val, by omega⟩ : Fin 128)) rfl rfl
      (ix1 j)
      (fun c hc => by match c with | ⟨0, _⟩ => exact absurd rfl hc)
      (by show j.val + 64 = 64 + j.val; omega))

/-! ## The remaining weights and biases -/

/-- A [64, 64] weight matrix in the matrix unit's format is, at the ideal values, the matrix. -/
theorem w64_mat (a : (⟨S64x64, .f32⟩ : BufTy).Contents (Elt Ideal)) : mat (w64 (F := Ideal) a) = mat a := by
  funext i j; rfl

/-- The [64, 32] weight matrix in the matrix unit's format is, at the ideal values, the matrix. -/
theorem w32_mat (a : (⟨S64x32, .f32⟩ : BufTy).Contents (Elt Ideal)) : mat (w32 (F := Ideal) a) = mat a := by
  funext i j; rfl

/-- A 64-long bias as a one-row matrix has the bias as its row. -/
theorem brow64_row (a : (⟨S64, .f32⟩ : BufTy).Contents (Elt Ideal)) : row0 (brow64 (F := Ideal) a) = vec a :=
  funext fun j => shapeCast_a_1a_apply a shapeCasts_S64_S1x64 (0 : Fin 1) j

/-- The 32-long bias as a one-row matrix has the bias as its row. -/
theorem brow32_row (a : (⟨S32, .f32⟩ : BufTy).Contents (Elt Ideal)) : row0 (brow32 (F := Ideal) a) = vec a :=
  funext fun j => shapeCast_a_1a_apply a shapeCasts_S32_S1x32 (0 : Fin 1) j

/-! ## The projected table's two halves -/

/-- The joined affine layer at a feature of the left half is the first projection. -/
theorem half_left (x : Fin 64 → EReal) (a b : (⟨S64x64, .f32⟩ : BufTy).Contents (Elt Ideal)) (a' b' : (⟨S64, .f32⟩ : BufTy).Contents (Elt Ideal)) (j : Fin 64) :
    aff x (mat (wcat (F := Ideal) a b)) (row0 (bcat (F := Ideal) a' b')) (⟨j.val, by omega⟩ : Fin 128)
      = aff x (mat a) (vec a') j := by
  unfold aff
  refine congrArg₂ (· + ·) (Finset.sum_congr rfl fun k _ => ?_) ?_
  · exact congrArg (x k * ·) (wcat_left a b k j)
  · exact bcat_left a' b' j

/-- The joined affine layer at a feature of the right half is the second projection. -/
theorem half_right (x : Fin 64 → EReal) (a b : (⟨S64x64, .f32⟩ : BufTy).Contents (Elt Ideal)) (a' b' : (⟨S64, .f32⟩ : BufTy).Contents (Elt Ideal)) (j : Fin 64) :
    aff x (mat (wcat (F := Ideal) a b)) (row0 (bcat (F := Ideal) a' b')) (⟨64 + j.val, by omega⟩ : Fin 128)
      = aff x (mat b) (vec b') j := by
  unfold aff
  refine congrArg₂ (· + ·) (Finset.sum_congr rfl fun k _ => ?_) ?_
  · exact congrArg (x k * ·) (wcat_right a b k j)
  · exact bcat_right a' b' j

/-! ## The gathered sum -/

/-- The gathered sum at edge `e`, feature `j`: the table's left half at the source's node row plus its right half at
    the destination's. The source's pair starts at column 0 and the destination's at column 64, both inside the range
    a 64-wide slice of 128 columns may start in, so neither is moved by the clamp. -/
theorem gsum_at (tbl : (⟨S100000x128, .bf16⟩ : BufTy).Contents (Elt Ideal)) (src dst : (⟨S1250000, .i32⟩ : BufTy).Contents (Elt Ideal))
    (e : Fin 1250000) (j : Fin 64) :
    gsum (F := Ideal) tbl src dst (ix2 e j)
      = tbl (ix2 (rowOf (src (ix1 e))) (⟨j.val, by omega⟩ : Fin 128))
        + tbl (ix2 (rowOf (dst (ix1 e))) (⟨64 + j.val, by omega⟩ : Fin 128)) := by
  have hs := GatherPair.gather_apply tbl (idxPair (F := Ideal) src 0#32) e j
  have hd := GatherPair.gather_apply tbl (idxPair (F := Ideal) dst 64#32) e j
  have rs : (⟨min (idxPair (F := Ideal) src 0#32 (ix2 e (0 : Fin 2))).toInt.toNat 99999, by omega⟩ : Fin 100000)
      = rowOf (src (ix1 e)) :=
    Fin.ext (congrArg (fun w : BitVec 32 => min w.toInt.toNat 99999) (idxPair_row src 0#32 e))
  have rd : (⟨min (idxPair (F := Ideal) dst 64#32 (ix2 e (0 : Fin 2))).toInt.toNat 99999, by omega⟩ : Fin 100000)
      = rowOf (dst (ix1 e)) :=
    Fin.ext (congrArg (fun w : BitVec 32 => min w.toInt.toNat 99999) (idxPair_row dst 64#32 e))
  have cs : (⟨min (idxPair (F := Ideal) src 0#32 (ix2 e (1 : Fin 2))).toInt.toNat 64 + j.val, by omega⟩ : Fin 128)
      = (⟨j.val, by omega⟩ : Fin 128) :=
    Fin.ext ((congrArg (fun w : BitVec 32 => min w.toInt.toNat 64 + j.val) (idxPair_col src 0#32 e)).trans
      (by rw [show min (0#32 : BitVec 32).toInt.toNat 64 = 0 from by decide, Nat.zero_add]))
  have cd : (⟨min (idxPair (F := Ideal) dst 64#32 (ix2 e (1 : Fin 2))).toInt.toNat 64 + j.val, by omega⟩ : Fin 128)
      = (⟨64 + j.val, by omega⟩ : Fin 128) :=
    Fin.ext ((congrArg (fun w : BitVec 32 => min w.toInt.toNat 64 + j.val) (idxPair_col dst 64#32 e)).trans
      (by rw [show min (64#32 : BitVec 32).toInt.toNat 64 = 64 from by decide]))
  show (Host.gather gather_S100000x128_S1250000x2_S1250000x64_1_0_n_n_01_1_164 tbl (idxPair (F := Ideal) src 0#32) (ix2 e j) : EReal)
      + (Host.gather gather_S100000x128_S1250000x2_S1250000x64_1_0_n_n_01_1_164 tbl (idxPair (F := Ideal) dst 64#32) (ix2 e j) : EReal) = _
  exact congrArg₂ (· + ·)
    (hs.trans (congrArg₂ (fun (r : Fin 100000) (c : Fin 128) => tbl (ix2 r c)) rs cs))
    (hd.trans (congrArg₂ (fun (r : Fin 100000) (c : Fin 128) => tbl (ix2 r c)) rd cd))

end Cert.HostReads

end
-- ==== Proof.SpecArr.lean ====
/-
  The result as an array: the row-wise formula read at each index of the [1250000, 32] result.
-/
import proofs.«161950_j61838939128121_2_alg».proof.Proof.EdgeSpec

noncomputable section

namespace Cert.EdgeSpec

open Idealize.ShloMosaic Idealize.ShloMosaic.ValueIdx

/-- The result array both programs end holding: at index `(e, o)`, `out … e o`. -/
def outArr (feat : (⟨2, ![100000, 64]⟩ : Shape).Idx → EReal) (efeat : (⟨2, ![1250000, 64]⟩ : Shape).Idx → EReal)
    (src dst : (⟨1, ![1250000]⟩ : Shape).Idx → BitVec 32)
    (wvsk : (⟨2, ![64, 64]⟩ : Shape).Idx → EReal) (bvsk : (⟨1, ![64]⟩ : Shape).Idx → EReal)
    (wvrk : (⟨2, ![64, 64]⟩ : Shape).Idx → EReal) (bvrk : (⟨1, ![64]⟩ : Shape).Idx → EReal)
    (wek : (⟨2, ![64, 64]⟩ : Shape).Idx → EReal) (bek : (⟨1, ![64]⟩ : Shape).Idx → EReal)
    (w1 : (⟨2, ![64, 64]⟩ : Shape).Idx → EReal) (b1 : (⟨1, ![64]⟩ : Shape).Idx → EReal)
    (w2 : (⟨2, ![64, 32]⟩ : Shape).Idx → EReal) (b2 : (⟨1, ![32]⟩ : Shape).Idx → EReal) :
    (⟨2, ![1250000, 32]⟩ : Shape).Idx → EReal :=
  fun i => out feat efeat src dst wvsk bvsk wvrk bvrk wek bek w1 b1 w2 b2
    (⟨(i 0).val, idx2_lt0 i⟩ : Fin 1250000) (⟨(i 1).val, idx2_lt1 i⟩ : Fin 32)

/-- At `(e, o)` it is the formula there. -/
theorem outArr_apply (feat efeat src dst wvsk bvsk wvrk bvrk wek bek w1 b1 w2 b2) (e : Fin 1250000) (o : Fin 32) :
    outArr feat efeat src dst wvsk bvsk wvrk bvrk wek bek w1 b1 w2 b2 (ix2 e o)
      = out feat efeat src dst wvsk bvsk wvrk bvrk wek bek w1 b1 w2 b2 e o := rfl

end Cert.EdgeSpec

end
-- ==== Proof.KernelValue.lean ====
/-
  What the idealized kernel program's result array holds: the specified result.

  The result array is what region 1's write-backs leave: the three rectified edge layers, row by row, on the edge
  features and on the gathered sum. The gathered sum at edge `e`, feature `j`, is the projected table at the source's
  row and column `j` plus the table at the destination's row and column `64 + j`; the table is region 0's affine layer
  with the two projections side by side, so those two entries are the first projection of the source's node row and the
  second projection of the destination's, at feature `j`. The remaining weights and biases reach region 1 through format
  changes and reshapes, which change no value. Index by index this is the specified result.
-/
import proofs.«161950_j61838939128121_2_alg».proof.Proof.KRun
import proofs.«161950_j61838939128121_2_alg».proof.Proof.Boundary
import proofs.«161950_j61838939128121_2_alg».proof.Proof.Final0
import proofs.«161950_j61838939128121_2_alg».proof.Proof.Final1
import proofs.«161950_j61838939128121_2_alg».proof.Proof.HostReads
import proofs.«161950_j61838939128121_2_alg».proof.Proof.SpecArr

set_option maxRecDepth 16384

noncomputable section

namespace Cert.KernelValue

open Cert.KernelIdeal Cert.KernelIdeal.Gen Cert.HostTerms Cert.EdgeSpec
open Idealize.ShloMosaic Idealize.ShloMosaic.TcCoe Idealize.SL.Sem Idealize.ShloMosaic.ValueIdx

/-- The projected table read at `(n, q)`: the side-by-side affine layer on node row `n`. -/
theorem comb_apply (x : S100000x64.Idx → EReal) (w : S64x128.Idx → EReal) (b : S1x128.Idx → EReal) (n : Fin 100000) (q : Fin 128) :
    Final0.comb x w b (ix2 n q) = aff (fun k => x (ix2 n k)) (mat w) (row0 b) q := rfl

/-- The edge layers' array read at `(e, o)`. -/
theorem edges_apply (ef g : S1250000x64.Idx → EReal) (wek : S64x64.Idx → EReal) (bek : S1x64.Idx → EReal) (w1 : S64x64.Idx → EReal)
    (b1 : S1x64.Idx → EReal) (w2 : S64x32.Idx → EReal) (b2 : S1x32.Idx → EReal) (e : Fin 1250000) (o : Fin 32) :
    Final1.edges ef g wek bek w1 b1 w2 b2 (ix2 e o)
      = edgeRow (fun k => ef (ix2 e k)) (fun j => g (ix2 e j)) (mat wek) (row0 bek) (mat w1) (row0 b1) (mat w2) (row0 b2) o := rfl

/-- The pure statement: the edge layers on the host terms of the argument arrays are the specified result. -/
theorem edges_eq_out (a0 : S100000x64.Idx → EReal) (a1 : S1250000x64.Idx → EReal) (a2 a3 : S1250000.Idx → BitVec 32)
    (a4 : S64x64.Idx → EReal) (a5 : S64.Idx → EReal) (a6 : S64x64.Idx → EReal) (a7 : S64.Idx → EReal)
    (a8 : S64x64.Idx → EReal) (a9 : S64.Idx → EReal) (a10 : S64x64.Idx → EReal) (a11 : S64.Idx → EReal)
    (a12 : S64x32.Idx → EReal) (a13 : S32.Idx → EReal) :
    Final1.edges a1
        (gsum (F := Ideal) (Final0.comb a0 (wcat (F := Ideal) a4 a6) (bcat (F := Ideal) a5 a7)) a2 a3)
        (w64 (F := Ideal) a8) (brow64 (F := Ideal) a9) (w64 (F := Ideal) a10) (brow64 (F := Ideal) a11)
        (w32 (F := Ideal) a12) (brow32 (F := Ideal) a13)
      = outArr a0 a1 a2 a3 a4 a5 a6 a7 a8 a9 a10 a11 a12 a13 := by
  funext i
  obtain ⟨e, o, rfl⟩ : ∃ (e : Fin 1250000) (o : Fin 32), i = ix2 e o := ⟨i 0, i 1, eq_ix2 i⟩
  rw [edges_apply, outArr_apply]
  unfold EdgeSpec.out
  rw [HostReads.w64_mat, HostReads.w64_mat, HostReads.w32_mat, HostReads.brow64_row, HostReads.brow64_row, HostReads.brow32_row]
  congr 1
  funext j
  rw [HostReads.gsum_at, comb_apply, comb_apply, HostReads.half_left, HostReads.half_right]

variable (m : (ℓ : Loc nD τ sig) → Buf (Elt Ideal) ℓ) (ρ : Dev nD → PrngReg)

/-- THE KERNEL'S VALUE: the last boundary's contents at the result's buffer are the specified result of the launched
    argument arrays. -/
theorem value (c : Dev nD) :
    W4 (F := Ideal) m ρ c (Proc.devRef .tc main_v33)
      = outArr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) := by
  refine (KRun.result_eq m ρ c).trans ((Final1.final (V3 m ρ) c).trans ?_)
  rw [Boundary.v3_arg1 m ρ c, Boundary.v3_v32 m ρ c, Boundary.v3_v4 m ρ c, Boundary.v3_v7 m ρ c, Boundary.v3_v5 m ρ c,
    Boundary.v3_v8 m ρ c, Boundary.v3_v6 m ρ c, Boundary.v3_v9 m ρ c, Final0.final (V1 m ρ) c,
    Boundary.v1_arg0 m ρ c, Boundary.v1_v3 m ρ c, Boundary.v1_v2 m ρ c]
  exact edges_eq_out _ _ _ _ _ _ _ _ _ _ _ _ _ _

end Cert.KernelValue

end
-- ==== Proof.RefSide.lean ====
/-
  The reference program, read at one edge and one output feature, is the row-by-row edge update.

  Two facts carry the reading. A row lookup into a table with 100000 rows — the index array one column wide, the
  whole 64-wide row taken — reads, at edge `e` and feature `j`, the table at the row the edge's index word names
  (read signed, clamped into the table) and at column `j`. And every dense layer is, at an index, the 64-term sum of
  the operand's row against a weight column plus the bias entry. Composing these from the inputs up to the last
  rectifier gives the three-layer formula of the specification.
-/
import proofs.«161950_j61838939128121_2_alg».proof.Proof.Gen.ReferenceIdeal.Read
import proofs.«161950_j61838939128121_2_alg».proof.Proof.EdgeSpec
import Idealize.ShloMosaic.Lib.ValueIdx
import Idealize.ShloMosaic.Lib.Pipeline.Value

noncomputable section

namespace Cert.RefSide

open Cert.ReferenceIdeal Cert.ReferenceIdeal.Gen Cert.ReferenceIdeal.Read Idealize.ShloMosaic Idealize.ShloMosaic.ValueIdx

/-! ## The row lookup -/

/-- A row lookup read at edge `e`, feature `j`: the table at the row the edge's index word names — read as a signed
    integer and clamped into the 100000 rows — and at column `j`. Axis 0 of the table is the looked-up one (its start
    is the clamped index, nothing is added to it); axis 1 is taken whole (start 0, the result's own column added). -/
theorem gather_row {α : Type}
    (x : S100000x64.Idx → α) (idx : IVec S1250000x1 32) (e : Fin 1250000) (j : Fin 64) :
    Host.gather gather_S100000x64_S1250000x1_S1250000x64_1_0_n_n_0_1_164 x idx (ix2 e j)
      = x (ix2 (⟨min (idx (ix2 e (0 : Fin 1))).toInt.toNat 99999, by omega⟩ : Fin 100000) j) := by
  unfold Host.gather
  congr 1
  funext a
  refine Fin.ext ?_
  match a with
  | ⟨0, _⟩ =>
    show gather_S100000x64_S1250000x1_S1250000x64_1_0_n_n_0_1_164.start (ix2 e j) idx 0
        + gather_S100000x64_S1250000x1_S1250000x64_1_0_n_n_0_1_164.batchCoord (ix2 e j) 0
        + gather_S100000x64_S1250000x1_S1250000x64_1_0_n_n_0_1_164.offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x64_S1250000x1_S1250000x64_1_0_n_n_0_1_164.startIndexMap
      from List.mem_singleton.mpr rfl)]
    have hsi : gather_S100000x64_S1250000x1_S1250000x64_1_0_n_n_0_1_164.siIdx (ix2 e j)
        ⟨List.idxOf (0 : Fin 2) gather_S100000x64_S1250000x1_S1250000x64_1_0_n_n_0_1_164.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gather_S100000x64_S1250000x1_S1250000x64_1_0_n_n_0_1_164.start (ix2 e j) idx 1
        + gather_S100000x64_S1250000x1_S1250000x64_1_0_n_n_0_1_164.batchCoord (ix2 e j) 1
        + gather_S100000x64_S1250000x1_S1250000x64_1_0_n_n_0_1_164.offCoord (ix2 e j) 1 = j.val
    rw [GatherDims.batchCoord_eq_zero _ _ _ List.not_mem_nil]
    have hst : gather_S100000x64_S1250000x1_S1250000x64_1_0_n_n_0_1_164.start (ix2 e j) idx 1 = 0 := by
      unfold GatherDims.start
      rw [dif_neg (show ¬ (1 : Fin 2) ∈ gather_S100000x64_S1250000x1_S1250000x64_1_0_n_n_0_1_164.startIndexMap by decide)]
    have hk : (1 : Fin 2) ∈ gather_S100000x64_S1250000x1_S1250000x64_1_0_n_n_0_1_164.sKept :=
      (GatherDims.mem_sKept _ _).mpr ⟨by decide, List.not_mem_nil⟩
    have hoff : gather_S100000x64_S1250000x1_S1250000x64_1_0_n_n_0_1_164.offCoord (ix2 e j) 1 = j.val := by
      unfold GatherDims.offCoord
      rw [dif_pos hk]
      rfl
    omega

/-! ## The dense layers on the inputs -/

/-- The first node projection at node row `n`, feature `j`: the affine map of the node's feature row. -/
theorem v3_at (x0 : (⟨S100000x64, .f32⟩ : BufTy).Contents (Elt Ideal)) (x4 : (⟨S64x64, .f32⟩ : BufTy).Contents (Elt Ideal))
    (x5 : (⟨S64, .f32⟩ : BufTy).Contents (Elt Ideal)) (n : Fin 100000) (j : Fin 64) :
    val_main_v3 (F := Ideal) x0 x4 x5 (ix2 n j)
      = EdgeSpec.aff (fun k => x0 (ix2 n k)) (EdgeSpec.mat x4) (EdgeSpec.vec x5) j := by
  have hl : ∀ k : Fin 64, lidx_main_v0 (ix2 n j) k = ix2 n k := fun k =>
    funext fun a => by match a with | ⟨0, _⟩ => rfl | ⟨1, _⟩ => rfl
  have hr : ∀ k : Fin 64, ridx_main_v0 (ix2 n j) k = ix2 k j := fun k =>
    funext fun a => by match a with | ⟨0, _⟩ => rfl | ⟨1, _⟩ => rfl
  have hb : idx_main_v1 (idx_main_v2 (ix2 n j)) = ix1 j :=
    funext fun a => by match a with | ⟨0, _⟩ => rfl
  have h0 : val_main_v0 (F := Ideal) x0 x4 (ix2 n j) = ∑ k : Fin 64, x0 (ix2 n k) * x4 (ix2 k j) :=
    (val_main_v0_apply x0 x4 (ix2 n j)).trans (Finset.sum_congr rfl fun k _ => by rw [hl k, hr k])
  have h2 : val_main_v2 (F := Ideal) x5 (ix2 n j) = x5 (ix1 j) :=
    ((val_main_v2_apply x5 (ix2 n j)).trans (val_main_v1_apply x5 _)).trans (congrArg x5 hb)
  show (val_main_v0 (F := Ideal) x0 x4 (ix2 n j) : EReal) + (val_main_v2 (F := Ideal) x5 (ix2 n j) : EReal) = _
  rw [h0, h2]
  rfl

/-- The second node projection at node row `n`, feature `j`. -/
theorem v7_at (x0 : (⟨S100000x64, .f32⟩ : BufTy).Contents (Elt Ideal)) (x6 : (⟨S64x64, .f32⟩ : BufTy).Contents (Elt Ideal))
    (x7 : (⟨S64, .f32⟩ : BufTy).Contents (Elt Ideal)) (n : Fin 100000) (j : Fin 64) :
    val_main_v7 (F := Ideal) x0 x6 x7 (ix2 n j)
      = EdgeSpec.aff (fun k => x0 (ix2 n k)) (EdgeSpec.mat x6) (EdgeSpec.vec x7) j := by
  have hl : ∀ k : Fin 64, lidx_main_v4 (ix2 n j) k = ix2 n k := fun k =>
    funext fun a => by match a with | ⟨0, _⟩ => rfl | ⟨1, _⟩ => rfl
  have hr : ∀ k : Fin 64, ridx_main_v4 (ix2 n j) k = ix2 k j := fun k =>
    funext fun a => by match a with | ⟨0, _⟩ => rfl | ⟨1, _⟩ => rfl
  have hb : idx_main_v5 (idx_main_v6 (ix2 n j)) = ix1 j :=
    funext fun a => by match a with | ⟨0, _⟩ => rfl
  have h0 : val_main_v4 (F := Ideal) x0 x6 (ix2 n j) = ∑ k : Fin 64, x0 (ix2 n k) * x6 (ix2 k j) :=
    (val_main_v4_apply x0 x6 (ix2 n j)).trans (Finset.sum_congr rfl fun k _ => by rw [hl k, hr k])
  have h2 : val_main_v6 (F := Ideal) x7 (ix2 n j) = x7 (ix1 j) :=
    ((val_main_v6_apply x7 (ix2 n j)).trans (val_main_v5_apply x7 _)).trans (congrArg x7 hb)
  show (val_main_v4 (F := Ideal) x0 x6 (ix2 n j) : EReal) + (val_main_v6 (F := Ideal) x7 (ix2 n j) : EReal) = _
  rw [h0, h2]
  rfl

/-- The edge features' own projection at edge `e`, feature `j`. -/
theorem v11_at (x1 : (⟨S1250000x64, .f32⟩ : BufTy).Contents (Elt Ideal)) (x8 : (⟨S64x64, .f32⟩ : BufTy).Contents (Elt Ideal))
    (x9 : (⟨S64, .f32⟩ : BufTy).Contents (Elt Ideal)) (e : Fin 1250000) (j : Fin 64) :
    val_main_v11 (F := Ideal) x1 x8 x9 (ix2 e j)
      = EdgeSpec.aff (fun k => x1 (ix2 e k)) (EdgeSpec.mat x8) (EdgeSpec.vec x9) j := by
  have hl : ∀ k : Fin 64, lidx_main_v8 (ix2 e j) k = ix2 e k := fun k =>
    funext fun a => by match a with | ⟨0, _⟩ => rfl | ⟨1, _⟩ => rfl
  have hr : ∀ k : Fin 64, ridx_main_v8 (ix2 e j) k = ix2 k j := fun k =>
    funext fun a => by match a with | ⟨0, _⟩ => rfl | ⟨1, _⟩ => rfl
  have hb : idx_main_v9 (idx_main_v10 (ix2 e j)) = ix1 j :=
    funext fun a => by match a with | ⟨0, _⟩ => rfl
  have h0 : val_main_v8 (F := Ideal) x1 x8 (ix2 e j) = ∑ k : Fin 64, x1 (ix2 e k) * x8 (ix2 k j) :=
    (val_main_v8_apply x1 x8 (ix2 e j)).trans (Finset.sum_congr rfl fun k _ => by rw [hl k, hr k])
  have h2 : val_main_v10 (F := Ideal) x9 (ix2 e j) = x9 (ix1 j) :=
    ((val_main_v10_apply x9 (ix2 e j)).trans (val_main_v9_apply x9 _)).trans (congrArg x9 hb)
  show (val_main_v8 (F := Ideal) x1 x8 (ix2 e j) : EReal) + (val_main_v10 (F := Ideal) x9 (ix2 e j) : EReal) = _
  rw [h0, h2]
  rfl

/-! ## The index words -/

/-- The source index column at edge `e`: the edge's index word, a negative one counted from the end. -/
theorem v17_at (x2 : (⟨S1250000, .i32⟩ : BufTy).Contents (Elt Ideal)) (e : Fin 1250000) :
    val_main_v17 (F := Ideal) x2 (ix2 e (0 : Fin 1)) = EdgeSpec.normIdx (x2 (ix1 e)) := by
  have hi : idx_main_v17 (ix2 e (0 : Fin 1)) = ix1 e := funext fun a => by match a with | ⟨0, _⟩ => rfl
  rw [val_main_v17_apply, hi, val_main_v16_apply, val_main_v13_apply, val_main_v15_apply, val_main_v12_apply,
    val_main_v14_apply, val_main_c_apply, val_main_c_0_apply]
  rfl

/-- The destination index column at edge `e`. -/
theorem v24_at (x3 : (⟨S1250000, .i32⟩ : BufTy).Contents (Elt Ideal)) (e : Fin 1250000) :
    val_main_v24 (F := Ideal) x3 (ix2 e (0 : Fin 1)) = EdgeSpec.normIdx (x3 (ix1 e)) := by
  have hi : idx_main_v24 (ix2 e (0 : Fin 1)) = ix1 e := funext fun a => by match a with | ⟨0, _⟩ => rfl
  rw [val_main_v24_apply, hi, val_main_v23_apply, val_main_v20_apply, val_main_v22_apply, val_main_v19_apply,
    val_main_v21_apply, val_main_c_1_apply, val_main_c_2_apply]
  rfl

/-! ## The two lookups -/

/-- The source lookup at edge `e`, feature `j`: the first projection at the node row the source word selects. -/
theorem v18_at (x0 : (⟨S100000x64, .f32⟩ : BufTy).Contents (Elt Ideal)) (x2 : (⟨S1250000, .i32⟩ : BufTy).Contents (Elt Ideal))
    (x4 : (⟨S64x64, .f32⟩ : BufTy).Contents (Elt Ideal)) (x5 : (⟨S64, .f32⟩ : BufTy).Contents (Elt Ideal))
    (e : Fin 1250000) (j : Fin 64) :
    val_main_v18 (F := Ideal) x0 x2 x4 x5 (ix2 e j)
      = val_main_v3 (F := Ideal) x0 x4 x5 (ix2 (EdgeSpec.rowOf (x2 (ix1 e))) j) := by
  have h := gather_row (val_main_v3 (F := Ideal) x0 x4 x5) (val_main_v17 (F := Ideal) x2) e j
  have hr : (⟨min (val_main_v17 (F := Ideal) x2 (ix2 e (0 : Fin 1))).toInt.toNat 99999, by omega⟩ : Fin 100000)
      = EdgeSpec.rowOf (x2 (ix1 e)) :=
    Fin.ext (congrArg (fun w : BitVec 32 => min w.toInt.toNat 99999) (v17_at x2 e))
  exact h.trans (congrArg (fun r : Fin 100000 => val_main_v3 (F := Ideal) x0 x4 x5 (ix2 r j)) hr)

/-- The destination lookup at edge `e`, feature `j`: the second projection at the node row the destination word selects. -/
theorem v25_at (x0 : (⟨S100000x64, .f32⟩ : BufTy).Contents (Elt Ideal)) (x3 : (⟨S1250000, .i32⟩ : BufTy).Contents (Elt Ideal))
    (x6 : (⟨S64x64, .f32⟩ : BufTy).Contents (Elt Ideal)) (x7 : (⟨S64, .f32⟩ : BufTy).Contents (Elt Ideal))
    (e : Fin 1250000) (j : Fin 64) :
    val_main_v25 (F := Ideal) x0 x3 x6 x7 (ix2 e j)
      = val_main_v7 (F := Ideal) x0 x6 x7 (ix2 (EdgeSpec.rowOf (x3 (ix1 e))) j) := by
  have h := gather_row (val_main_v7 (F := Ideal) x0 x6 x7) (val_main_v24 (F := Ideal) x3) e j
  have hr : (⟨min (val_main_v24 (F := Ideal) x3 (ix2 e (0 : Fin 1))).toInt.toNat 99999, by omega⟩ : Fin 100000)
      = EdgeSpec.rowOf (x3 (ix1 e)) :=
    Fin.ext (congrArg (fun w : BitVec 32 => min w.toInt.toNat 99999) (v24_at x3 e))
  exact h.trans (congrArg (fun r : Fin 100000 => val_main_v7 (F := Ideal) x0 x6 x7 (ix2 r j)) hr)

/-! ## The three rectified edge layers -/

/-- The first edge layer at edge `e`, feature `j`: the rectified sum of the two looked-up node projections and the
    edge's own projection. -/
theorem v28_at (x0 : (⟨S100000x64, .f32⟩ : BufTy).Contents (Elt Ideal)) (x1 : (⟨S1250000x64, .f32⟩ : BufTy).Contents (Elt Ideal))
    (x2 x3 : (⟨S1250000, .i32⟩ : BufTy).Contents (Elt Ideal)) (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal))
    (e : Fin 1250000) (j : Fin 64) :
    val_main_v28 (F := Ideal) x0 x1 x2 x3 x4 x5 x6 x7 x8 x9 (ix2 e j)
      = EdgeSpec.relu ((EdgeSpec.aff (fun k => x0 (ix2 (EdgeSpec.rowOf (x2 (ix1 e))) k)) (EdgeSpec.mat x4) (EdgeSpec.vec x5) j
            + EdgeSpec.aff (fun k => x0 (ix2 (EdgeSpec.rowOf (x3 (ix1 e))) k)) (EdgeSpec.mat x6) (EdgeSpec.vec x7) j)
          + EdgeSpec.aff (fun k => x1 (ix2 e k)) (EdgeSpec.mat x8) (EdgeSpec.vec x9) j) := by
  have hz : (val_main_call0_v0 (F := Ideal) (ix2 e j) : EReal) = EdgeSpec.zero :=
    (val_main_call0_v0_apply (F := Ideal) (ix2 e j)).trans (val_main_call0_cst_apply (F := Ideal) _)
  show max (((val_main_v18 (F := Ideal) x0 x2 x4 x5 (ix2 e j) : EReal) + (val_main_v25 (F := Ideal) x0 x3 x6 x7 (ix2 e j) : EReal))
      + (val_main_v11 (F := Ideal) x1 x8 x9 (ix2 e j) : EReal)) (val_main_call0_v0 (F := Ideal) (ix2 e j) : EReal) = _
  rw [hz, v18_at, v25_at, v3_at, v7_at, v11_at]
  rfl

/-- The second edge layer at edge `e`, feature `k`: the rectified affine map of the first layer's row. -/
theorem v33_at (x0 : (⟨S100000x64, .f32⟩ : BufTy).Contents (Elt Ideal)) (x1 : (⟨S1250000x64, .f32⟩ : BufTy).Contents (Elt Ideal))
    (x2 x3 : (⟨S1250000, .i32⟩ : BufTy).Contents (Elt Ideal)) (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal))
    (x10 : (⟨S64x64, .f32⟩ : BufTy).Contents (Elt Ideal)) (x11 : (⟨S64, .f32⟩ : BufTy).Contents (Elt Ideal))
    (e : Fin 1250000) (k : Fin 64) :
    val_main_v33 (F := Ideal) x0 x1 x2 x3 x4 x5 x6 x7 x8 x9 x10 x11 (ix2 e k)
      = EdgeSpec.relu (EdgeSpec.aff (fun j => EdgeSpec.relu ((EdgeSpec.aff (fun k => x0 (ix2 (EdgeSpec.rowOf (x2 (ix1 e))) k)) (EdgeSpec.mat x4) (EdgeSpec.vec x5) j
            + EdgeSpec.aff (fun k => x0 (ix2 (EdgeSpec.rowOf (x3 (ix1 e))) k)) (EdgeSpec.mat x6) (EdgeSpec.vec x7) j)
          + EdgeSpec.aff (fun k => x1 (ix2 e k)) (EdgeSpec.mat x8) (EdgeSpec.vec x9) j)) (EdgeSpec.mat x10) (EdgeSpec.vec x11) k) := by
  have hl : ∀ q : Fin 64, lidx_main_v29 (ix2 e k) q = ix2 e q := fun q =>
    funext fun a => by match a with | ⟨0, _⟩ => rfl | ⟨1, _⟩ => rfl
  have hr : ∀ q : Fin 64, ridx_main_v29 (ix2 e k) q = ix2 q k := fun q =>
    funext fun a => by match a with | ⟨0, _⟩ => rfl | ⟨1, _⟩ => rfl
  have hb : idx_main_v30 (idx_main_v31 (ix2 e k)) = ix1 k :=
    funext fun a => by match a with | ⟨0, _⟩ => rfl
  have hz : (val_main_call1_v0 (F := Ideal) (ix2 e k) : EReal) = EdgeSpec.zero :=
    (val_main_call1_v0_apply (F := Ideal) (ix2 e k)).trans (val_main_call1_cst_apply (F := Ideal) _)
  have h29 : val_main_v29 (F := Ideal) x0 x1 x2 x3 x4 x5 x6 x7 x8 x9 x10 (ix2 e k)
      = ∑ q : Fin 64, (EdgeSpec.relu ((EdgeSpec.aff (fun k => x0 (ix2 (EdgeSpec.rowOf (x2 (ix1 e))) k)) (EdgeSpec.mat x4) (EdgeSpec.vec x5) q
            + EdgeSpec.aff (fun k => x0 (ix2 (EdgeSpec.rowOf (x3 (ix1 e))) k)) (EdgeSpec.mat x6) (EdgeSpec.vec x7) q)
          + EdgeSpec.aff (fun k => x1 (ix2 e k)) (EdgeSpec.mat x8) (EdgeSpec.vec x9) q)) * x10 (ix2 q k) :=
    (val_main_v29_apply x0 x1 x2 x3 x4 x5 x6 x7 x8 x9 x10 (ix2 e k)).trans
      (Finset.sum_congr rfl fun q _ => by rw [hl q, hr q, v28_at])
  have h31 : val_main_v31 (F := Ideal) x11 (ix2 e k) = x11 (ix1 k) :=
    ((val_main_v31_apply x11 (ix2 e k)).trans (val_main_v30_apply x11 _)).trans (congrArg x11 hb)
  show max ((val_main_v29 (F := Ideal) x0 x1 x2 x3 x4 x5 x6 x7 x8 x9 x10 (ix2 e k) : EReal) + (val_main_v31 (F := Ideal) x11 (ix2 e k) : EReal))
      (val_main_call1_v0 (F := Ideal) (ix2 e k) : EReal) = _
  rw [h29, h31, hz]
  rfl

/-- The third edge layer at edge `e`, output feature `o`: the rectified affine map of the second layer's row. -/
theorem v38_at (x0 : (⟨S100000x64, .f32⟩ : BufTy).Contents (Elt Ideal)) (x1 : (⟨S1250000x64, .f32⟩ : BufTy).Contents (Elt Ideal))
    (x2 x3 : (⟨S1250000, .i32⟩ : BufTy).Contents (Elt Ideal)) (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal))
    (x10 : (⟨S64x64, .f32⟩ : BufTy).Contents (Elt Ideal)) (x11 : (⟨S64, .f32⟩ : BufTy).Contents (Elt Ideal))
    (x12 : (⟨S64x32, .f32⟩ : BufTy).Contents (Elt Ideal)) (x13 : (⟨S32, .f32⟩ : BufTy).Contents (Elt Ideal))
    (e : Fin 1250000) (o : Fin 32) :
    val_main_v38 (F := Ideal) x0 x1 x2 x3 x4 x5 x6 x7 x8 x9 x10 x11 x12 x13 (ix2 e o)
      = EdgeSpec.relu (EdgeSpec.aff (fun k => EdgeSpec.relu (EdgeSpec.aff (fun j => EdgeSpec.relu ((EdgeSpec.aff (fun k => x0 (ix2 (EdgeSpec.rowOf (x2 (ix1 e))) k)) (EdgeSpec.mat x4) (EdgeSpec.vec x5) j
            + EdgeSpec.aff (fun k => x0 (ix2 (EdgeSpec.rowOf (x3 (ix1 e))) k)) (EdgeSpec.mat x6) (EdgeSpec.vec x7) j)
          + EdgeSpec.aff (fun k => x1 (ix2 e k)) (EdgeSpec.mat x8) (EdgeSpec.vec x9) j)) (EdgeSpec.mat x10) (EdgeSpec.vec x11) k)) (EdgeSpec.mat x12) (EdgeSpec.vec x13) o) := by
  have hl : ∀ q : Fin 64, lidx_main_v34 (ix2 e o) q = ix2 e q := fun q =>
    funext fun a => by match a with | ⟨0, _⟩ => rfl | ⟨1, _⟩ => rfl
  have hr : ∀ q : Fin 64, ridx_main_v34 (ix2 e o) q = ix2 q o := fun q =>
    funext fun a => by match a with | ⟨0, _⟩ => rfl | ⟨1, _⟩ => rfl
  have hb : idx_main_v35 (idx_main_v36 (ix2 e o)) = ix1 o :=
    funext fun a => by match a with | ⟨0, _⟩ => rfl
  have hz : (val_main_call2_v0 (F := Ideal) (ix2 e o) : EReal) = EdgeSpec.zero :=
    (val_main_call2_v0_apply (F := Ideal) (ix2 e o)).trans (val_main_call2_cst_apply (F := Ideal) _)
  have h34 : val_main_v34 (F := Ideal) x0 x1 x2 x3 x4 x5 x6 x7 x8 x9 x10 x11 x12 (ix2 e o)
      = ∑ q : Fin 64, (EdgeSpec.relu (EdgeSpec.aff (fun j => EdgeSpec.relu ((EdgeSpec.aff (fun k => x0 (ix2 (EdgeSpec.rowOf (x2 (ix1 e))) k)) (EdgeSpec.mat x4) (EdgeSpec.vec x5) j
            + EdgeSpec.aff (fun k => x0 (ix2 (EdgeSpec.rowOf (x3 (ix1 e))) k)) (EdgeSpec.mat x6) (EdgeSpec.vec x7) j)
          + EdgeSpec.aff (fun k => x1 (ix2 e k)) (EdgeSpec.mat x8) (EdgeSpec.vec x9) j)) (EdgeSpec.mat x10) (EdgeSpec.vec x11) q)) * x12 (ix2 q o) :=
    (val_main_v34_apply x0 x1 x2 x3 x4 x5 x6 x7 x8 x9 x10 x11 x12 (ix2 e o)).trans
      (Finset.sum_congr rfl fun q _ => by rw [hl q, hr q, v33_at])
  have h36 : val_main_v36 (F := Ideal) x13 (ix2 e o) = x13 (ix1 o) :=
    ((val_main_v36_apply x13 (ix2 e o)).trans (val_main_v35_apply x13 _)).trans (congrArg x13 hb)
  show max ((val_main_v34 (F := Ideal) x0 x1 x2 x3 x4 x5 x6 x7 x8 x9 x10 x11 x12 (ix2 e o) : EReal) + (val_main_v36 (F := Ideal) x13 (ix2 e o) : EReal))
      (val_main_call2_v0 (F := Ideal) (ix2 e o) : EReal) = _
  rw [h34, h36, hz]
  rfl

/-! ## The reference is the specification -/

/-- The reference program's result at edge `e`, output feature `o`, is the row-by-row edge update there. -/
theorem ref_eq (x0 : (⟨S100000x64, .f32⟩ : BufTy).Contents (Elt Ideal)) (x1 : (⟨S1250000x64, .f32⟩ : BufTy).Contents (Elt Ideal))
    (x2 x3 : (⟨S1250000, .i32⟩ : BufTy).Contents (Elt Ideal)) (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal))
    (x10 : (⟨S64x64, .f32⟩ : BufTy).Contents (Elt Ideal)) (x11 : (⟨S64, .f32⟩ : BufTy).Contents (Elt Ideal))
    (x12 : (⟨S64x32, .f32⟩ : BufTy).Contents (Elt Ideal)) (x13 : (⟨S32, .f32⟩ : BufTy).Contents (Elt Ideal))
    (e : Fin 1250000) (o : Fin 32) :
    Cert.ReferenceIdeal.Read.val_main_v38 (F := Ideal) x0 x1 x2 x3 x4 x5 x6 x7 x8 x9 x10 x11 x12 x13 (ix2 e o)
      = Cert.EdgeSpec.out x0 x1 x2 x3 x4 x5 x6 x7 x8 x9 x10 x11 x12 x13 e o :=
  (v38_at x0 x1 x2 x3 x4 x5 x6 x7 x8 x9 x10 x11 x12 x13 e o).trans rfl

end Cert.RefSide

end
-- ==== Proof.lean ====
/-
  A message-passing edge update: for each of 1.25 million edges, three rectified affine layers on the edge's own
  feature row and on the sum of two projected node rows — the first projection of the edge's source node, the second of
  its destination node, looked up by index in tables of 100000 rows (a negative index counts from the end, an index out of
  range is clamped).

  The kernel program computes both node projections with ONE 128-wide matrix product (the two weight matrices side by
  side, the biases end to end), looks the two rows up as 64-column slices of that table and adds them on the host, then
  runs the three edge layers in a second pipelined region over blocks of 5000 edges. The reference computes the two
  projections separately, looks rows up in each, and applies the layers to the whole arrays. At the ideal values — format
  changes the identity, each matrix product the sum over its 64 contracted features — both end holding the same array:
  at edge `e` and output feature `o`, `EdgeSpec.out … e o`. No algebraic law beyond reading a side-by-side matrix by its
  halves is used, so nothing is asked of the inputs' finiteness.

  Frames: the two kernel programs' runs terminate without a fault and leave their arguments as launched (the
  pipelines' frame proofs); the reference's is its run read back with the result dropped. The idealization rewrote no
  operation, so that conjunct asks nothing.
-/
import proofs.«161950_j61838939128121_2_alg».proof.Defs
import proofs.«161950_j61838939128121_2_alg».proof.Proof.Gen.Kernel
import proofs.«161950_j61838939128121_2_alg».proof.Proof.Gen.Kernel.Skeleton
import proofs.«161950_j61838939128121_2_alg».proof.Proof.Gen.Kernel.Launch
import proofs.«161950_j61838939128121_2_alg».proof.Proof.Gen.Kernel.Points
import proofs.«161950_j61838939128121_2_alg».proof.Proof.Gen.Kernel.Frame
import proofs.«161950_j61838939128121_2_alg».proof.Proof.Gen.KernelIdeal
import proofs.«161950_j61838939128121_2_alg».proof.Proof.Gen.KernelIdeal.Skeleton
import proofs.«161950_j61838939128121_2_alg».proof.Proof.Gen.KernelIdeal.Launch
import proofs.«161950_j61838939128121_2_alg».proof.Proof.Gen.KernelIdeal.Points
import proofs.«161950_j61838939128121_2_alg».proof.Proof.Gen.KernelIdeal.Frame
import proofs.«161950_j61838939128121_2_alg».proof.Proof.Gen.ReferenceIdeal
import proofs.«161950_j61838939128121_2_alg».proof.Proof.Gen.ReferenceIdeal.Run
import proofs.«161950_j61838939128121_2_alg».proof.Proof.Gen.ReferenceIdeal.Read
import proofs.«161950_j61838939128121_2_alg».proof.Proof.Gen.Pre_finite_inputs
import proofs.«161950_j61838939128121_2_alg».proof.Proof.KernelValue
import proofs.«161950_j61838939128121_2_alg».proof.Proof.RefSide
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The reference's result array is the specified result of its argument arrays: its run's term is the last stage of
    its operations read one at a time, and that stage is the formula at every index. -/
theorem reference_value (x0 : (⟨Cert.ReferenceIdeal.S100000x64, .f32⟩ : BufTy).Contents (Elt Ideal))
    (x1 : (⟨Cert.ReferenceIdeal.S1250000x64, .f32⟩ : BufTy).Contents (Elt Ideal))
    (x2 x3 : (⟨Cert.ReferenceIdeal.S1250000, .i32⟩ : BufTy).Contents (Elt Ideal))
    (x4 : (⟨Cert.ReferenceIdeal.S64x64, .f32⟩ : BufTy).Contents (Elt Ideal)) (x5 : (⟨Cert.ReferenceIdeal.S64, .f32⟩ : BufTy).Contents (Elt Ideal))
    (x6 : (⟨Cert.ReferenceIdeal.S64x64, .f32⟩ : BufTy).Contents (Elt Ideal)) (x7 : (⟨Cert.ReferenceIdeal.S64, .f32⟩ : BufTy).Contents (Elt Ideal))
    (x8 : (⟨Cert.ReferenceIdeal.S64x64, .f32⟩ : BufTy).Contents (Elt Ideal)) (x9 : (⟨Cert.ReferenceIdeal.S64, .f32⟩ : BufTy).Contents (Elt Ideal))
    (x10 : (⟨Cert.ReferenceIdeal.S64x64, .f32⟩ : BufTy).Contents (Elt Ideal)) (x11 : (⟨Cert.ReferenceIdeal.S64, .f32⟩ : BufTy).Contents (Elt Ideal))
    (x12 : (⟨Cert.ReferenceIdeal.S64x32, .f32⟩ : BufTy).Contents (Elt Ideal)) (x13 : (⟨Cert.ReferenceIdeal.S32, .f32⟩ : BufTy).Contents (Elt Ideal)) :
    Cert.ReferenceIdeal.Read.val_main_v38 (F := Ideal) x0 x1 x2 x3 x4 x5 x6 x7 x8 x9 x10 x11 x12 x13
      = Cert.EdgeSpec.outArr x0 x1 x2 x3 x4 x5 x6 x7 x8 x9 x10 x11 x12 x13 := by
  funext i
  obtain ⟨e, o, rfl⟩ : ∃ (e : Fin 1250000) (o : Fin 32), i = ix2 e o := ⟨i 0, i 1, eq_ix2 i⟩
  exact Cert.RefSide.ref_eq x0 x1 x2 x3 x4 x5 x6 x7 x8 x9 x10 x11 x12 x13 e o

/-- Both idealized programs, run from memories that agree on the arguments, end holding the specified result. -/
theorem algebraic : Cert.algebraic_KernelIdeal_ReferenceIdeal := by
  intro m ρ m' ρ' _ hagree
  refine ⟨fun c => Cert.EdgeSpec.outArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · exact (θ_run Cert.KernelIdeal.defs _ _).mono
      (fun _ h c => ⟨(h c).1.trans (Cert.KernelValue.value m ρ c), (h c).2⟩) (Cert.KRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13⟩ := hagree c
    rw [h0, h1, h2, h3, h4, h5, h6, h7, h8, h9, h10, h11, h12, h13]
    exact reference_value _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
